-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x25000x3 : Shape := ⟨3, ![16, 25000, 3]⟩
abbrev S16x25000x192 : Shape := ⟨3, ![16, 25000, 192]⟩
abbrev S195x3 : Shape := ⟨2, ![195, 3]⟩
abbrev S3 : Shape := ⟨1, ![3]⟩
abbrev S195x4 : Shape := ⟨2, ![195, 4]⟩
abbrev S4 : Shape := ⟨1, ![4]⟩
abbrev S195x1 : Shape := ⟨2, ![195, 1]⟩
abbrev S1 : Shape := ⟨1, ![1]⟩
abbrev S16x3x3 : Shape := ⟨3, ![16, 3, 3]⟩
abbrev S16x4x4 : Shape := ⟨3, ![16, 4, 4]⟩
abbrev S_ : Shape := ⟨0, ![]⟩

class Facts : Prop where
  bcast_S_S16x25000x3 : S_.BroadcastsInDim S16x25000x3 (![] : Fin 0 → Fin S16x25000x3.rank)
  reducesTo_S16x25000x3_S_d0_1_2 : S16x25000x3.ReducesTo [0, 1, 2] S_
  h_S_ : 0 < S_.numel
  bcast_S_S16x25000x192 : S_.BroadcastsInDim S16x25000x192 (![] : Fin 0 → Fin S16x25000x192.rank)
  reducesTo_S16x25000x192_S_d0_1_2 : S16x25000x192.ReducesTo [0, 1, 2] S_
  bcast_S_S195x3 : S_.BroadcastsInDim S195x3 (![] : Fin 0 → Fin S195x3.rank)
  reducesTo_S195x3_S_d0_1 : S195x3.ReducesTo [0, 1] S_
  bcast_S_S3 : S_.BroadcastsInDim S3 (![] : Fin 0 → Fin S3.rank)
  reducesTo_S3_S_d0 : S3.ReducesTo [0] S_
  bcast_S_S195x4 : S_.BroadcastsInDim S195x4 (![] : Fin 0 → Fin S195x4.rank)
  reducesTo_S195x4_S_d0_1 : S195x4.ReducesTo [0, 1] S_
  bcast_S_S4 : S_.BroadcastsInDim S4 (![] : Fin 0 → Fin S4.rank)
  reducesTo_S4_S_d0 : S4.ReducesTo [0] S_
  bcast_S_S195x1 : S_.BroadcastsInDim S195x1 (![] : Fin 0 → Fin S195x1.rank)
  reducesTo_S195x1_S_d0_1 : S195x1.ReducesTo [0, 1] S_
  bcast_S_S1 : S_.BroadcastsInDim S1 (![] : Fin 0 → Fin S1.rank)
  reducesTo_S1_S_d0 : S1.ReducesTo [0] S_
  bcast_S_S16x3x3 : S_.BroadcastsInDim S16x3x3 (![] : Fin 0 → Fin S16x3x3.rank)
  reducesTo_S16x3x3_S_d0_1_2 : S16x3x3.ReducesTo [0, 1, 2] S_
  bcast_S_S16x4x4 : S_.BroadcastsInDim S16x4x4 (![] : Fin 0 → Fin S16x4x4.rank)
  reducesTo_S16x4x4_S_d0_1_2 : S16x4x4.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S3 .f32) (main_arg12 : FVec F S16x3x3 .f32) (main_arg13 : FVec F S16x4x4 .f32) (main_v48 : IVec S_ 1) (main_v49 : FVec F S195x3 .f32) (main_v50 : FVec F S195x3 .f32) : IVec S_ 1 :=
  let main_v51 : IVec S195x3 1 := cmpf .olt main_v49 main_v50
  let main_c_19 : IVec S_ 1 := constantI S_ 1 1#1
  let main_v52 : IVec S_ 1 := (fun x v => Host.reduce IntOp.andi x v reducesTo_S195x3_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  let main_v59 : FVec F S16x3x3 .f32 := Host.absf main_arg12
  let main_cst_22 : FVec F S_ .f32 := constant S_ .f32 0x7F800000#32
  let main_v60 : FVec F S16x3x3 .f32 := broadcastInDim S16x3x3 ![] bcast_S_S16x3x3 main_cst_22
  let main_v61 : IVec S16x3x3 1 := cmpf .olt main_v59 main_v60
  let main_c_23 : IVec S_ 1 := constantI S_ 1 1#1
  let main_v62 : IVec S_ 1 := (fun x v => Host.reduce IntOp.andi x v reducesTo_S16x3x3_S_d0_1_2 h_S_) main_v61 main_c_23
  let main_v63 : IVec S_ 1 := andi main_v58 main_v62
  let main_v64 : FVec F S16x4x4 .f32 := Host.absf main_arg13
  let main_cst_24 : FVec F S_ .f32 := constant S_ .f32 0x7F800000#32
  let main_v65 : FVec F S16x4x4 .f32 := broadcastInDim S16x4x4 ![] bcast_S_S16x4x4 main_cst_24
  let main_v66 : IVec S16x4x4 1 := cmpf .olt main_v64 main_v65
  let main_c_25 : IVec S_ 1 := constantI S_ 1 1#1
  let main_v67 : IVec S_ 1 := (fun x v => Host.reduce IntOp.andi x v reducesTo_S16x4x4_S_d0_1_2 h_S_) main_v66 main_c_25
  fn_part4 (F := F) main_v63 main_v67

def fn_part2 {F : FTy → Type} [FloatOps F] (main_arg7 : FVec F S3 .f32) (main_arg8 : FVec F S195x1 .f32) (main_arg9 : FVec F S1 .f32) (main_arg10 : FVec F S195x3 .f32) (main_arg11 : FVec F S3 .f32) (main_arg12 : FVec F S16x3x3 .f32) (main_arg13 : FVec F S16x4x4 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S195x1 .f32 := Host.absf main_arg8
  let main_cst_14 : FVec F S_ .f32 := constant S_ .f32 0x7F800000#32
  let main_v40 : FVec F S195x1 .f32 := broadcastInDim S195x1 ![] bcast_S_S195x1 main_cst_14
  let main_v41 : IVec S195x1 1 := cmpf .olt main_v39 main_v40
  let main_c_15 : IVec S_ 1 := constantI S_ 1 1#1
  let main_v42 : IVec S_ 1 := (fun x v => Host.reduce IntOp.andi x v reducesTo_S195x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S195x3 .f32 := Host.absf main_arg10
  let main_cst_18 : FVec F S_ .f32 := constant S_ .f32 0x7F800000#32
  let main_v50 : FVec F S195x3 .f32 := broadcastInDim S195x3 ![] bcast_S_S195x3 main_cst_18
  fn_part3 (F := F) main_arg11 main_arg12 main_arg13 main_v48 main_v49 main_v50

def fn_part1 {F : FTy → Type} [FloatOps F] (main_arg4 : FVec F S195x4 .f32) (main_arg5 : FVec F S4 .f32) (main_arg6 : FVec F S195x3 .f32) (main_arg7 : FVec F S3 .f32) (main_arg8 : FVec F S195x1 .f32) (main_arg9 : FVec F S1 .f32) (main_arg10 : FVec F S195x3 .f32) (main_arg11 : FVec F S3 .f32) (main_arg12 : FVec F S16x3x3 .f32) (main_arg13 : FVec F S16x4x4 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S195x4 .f32 := Host.absf main_arg4
  let main_cst_6 : FVec F S_ .f32 := constant S_ .f32 0x7F800000#32
  let main_v20 : FVec F S195x4 .f32 := broadcastInDim S195x4 ![] bcast_S_S195x4 main_cst_6
  let main_v21 : IVec S195x4 1 := cmpf .olt main_v19 main_v20
  let main_c_7 : IVec S_ 1 := constantI S_ 1 1#1
  let main_v22 : IVec S_ 1 := (fun x v => Host.reduce IntOp.andi x v reducesTo_S195x4_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S195x3 .f32 := Host.absf main_arg6
  let main_cst_10 : FVec F S_ .f32 := constant S_ .f32 0x7F800000#32
  let main_v30 : FVec F S195x3 .f32 := broadcastInDim S195x3 ![] bcast_S_S195x3 main_cst_10
  let main_v31 : IVec S195x3 1 := cmpf .olt main_v29 main_v30
  let main_c_11 : IVec S_ 1 := constantI S_ 1 1#1
  let main_v32 : IVec S_ 1 := (fun x v => Host.reduce IntOp.andi x v reducesTo_S195x3_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16x25000x3 .f32) (main_arg1 : FVec F S16x25000x192 .f32) (main_arg2 : FVec F S195x3 .f32) (main_arg3 : FVec F S3 .f32) (main_arg4 : FVec F S195x4 .f32) (main_arg5 : FVec F S4 .f32) (main_arg6 : FVec F S195x3 .f32) (main_arg7 : FVec F S3 .f32) (main_arg8 : FVec F S195x1 .f32) (main_arg9 : FVec F S1 .f32) (main_arg10 : FVec F S195x3 .f32) (main_arg11 : FVec F S3 .f32) (main_arg12 : FVec F S16x3x3 .f32) (main_arg13 : FVec F S16x4x4 .f32) : IVec S_ 1 :=
  let main_v0 : FVec F S16x25000x3 .f32 := Host.absf main_arg0
  let main_cst : FVec F S_ .f32 := constant S_ .f32 0x7F800000#32
  let main_v1 : FVec F S16x25000x3 .f32 := broadcastInDim S16x25000x3 ![] bcast_S_S16x25000x3 main_cst
  let main_v2 : IVec S16x25000x3 1 := cmpf .olt main_v0 main_v1
  let main_c : IVec S_ 1 := constantI S_ 1 1#1
  let main_v3 : IVec S_ 1 := (fun x v => Host.reduce IntOp.andi x v reducesTo_S16x25000x3_S_d0_1_2 h_S_) main_v2 main_c
  let main_v4 : FVec F S16x25000x192 .f32 := Host.absf main_arg1
  let main_cst_0 : FVec F S_ .f32 := constant S_ .f32 0x7F800000#32
  let main_v5 : FVec F S16x25000x192 .f32 := broadcastInDim S16x25000x192 ![] bcast_S_S16x25000x192 main_cst_0
  let main_v6 : IVec S16x25000x192 1 := cmpf .olt main_v4 main_v5
  let main_c_1 : IVec S_ 1 := constantI S_ 1 1#1
  let main_v7 : IVec S_ 1 := (fun x v => Host.reduce IntOp.andi x v reducesTo_S16x25000x192_S_d0_1_2 h_S_) main_v6 main_c_1
  let main_v8 : IVec S_ 1 := andi main_v3 main_v7
  let main_v9 : FVec F S195x3 .f32 := Host.absf main_arg2
  let main_cst_2 : FVec F S_ .f32 := constant S_ .f32 0x7F800000#32
  let main_v10 : FVec F S195x3 .f32 := broadcastInDim S195x3 ![] bcast_S_S195x3 main_cst_2
  let main_v11 : IVec S195x3 1 := cmpf .olt main_v9 main_v10
  let main_c_3 : IVec S_ 1 := constantI S_ 1 1#1
  let main_v12 : IVec S_ 1 := (fun x v => Host.reduce IntOp.andi x v reducesTo_S195x3_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_arg6 main_arg7 main_arg8 main_arg9 main_arg10 main_arg11 main_arg12 main_arg13 main_v13 main_v16
-- ==== Kernel.lean ====
abbrev S16x25000x3 : Shape := ⟨3, ![16, 25000, 3]⟩
abbrev S16x25000x192 : Shape := ⟨3, ![16, 25000, 192]⟩
abbrev S195x3 : Shape := ⟨2, ![195, 3]⟩
abbrev S3 : Shape := ⟨1, ![3]⟩
abbrev S195x4 : Shape := ⟨2, ![195, 4]⟩
abbrev S4 : Shape := ⟨1, ![4]⟩
abbrev S195x1 : Shape := ⟨2, ![195, 1]⟩
abbrev S1 : Shape := ⟨1, ![1]⟩
abbrev S16x3x3 : Shape := ⟨3, ![16, 3, 3]⟩
abbrev S16x4x4 : Shape := ⟨3, ![16, 4, 4]⟩
abbrev S195x14 : Shape := ⟨2, ![195, 14]⟩
abbrev S14 : Shape := ⟨1, ![14]⟩
abbrev S1x14 : Shape := ⟨2, ![1, 14]⟩
abbrev S3x14 : Shape := ⟨2, ![3, 14]⟩
abbrev S192x14 : Shape := ⟨2, ![192, 14]⟩
abbrev S16x1x1 : Shape := ⟨3, ![16, 1, 1]⟩
abbrev S16 : Shape := ⟨1, ![16]⟩
abbrev S_ : Shape := ⟨0, ![]⟩
abbrev S2 : Shape := ⟨1, ![2]⟩
abbrev S16x25000x14 : Shape := ⟨3, ![16, 25000, 14]⟩
abbrev S1x5000x3 : Shape := ⟨3, ![1, 5000, 3]⟩
abbrev S1x5000x192 : Shape := ⟨3, ![1, 5000, 192]⟩
abbrev S1x4x4 : Shape := ⟨3, ![1, 4, 4]⟩
abbrev S1x5000x14 : Shape := ⟨3, ![1, 5000, 14]⟩
abbrev S5000x3 : Shape := ⟨2, ![5000, 3]⟩
abbrev S5000x192 : Shape := ⟨2, ![5000, 192]⟩
abbrev S5000x14 : Shape := ⟨2, ![5000, 14]⟩
abbrev S5000x1 : Shape := ⟨2, ![5000, 1]⟩
abbrev S1x5000x1 : Shape := ⟨3, ![1, 5000, 1]⟩
abbrev S5000x4 : Shape := ⟨2, ![5000, 4]⟩
abbrev S5000 : Shape := ⟨1, ![5000]⟩
abbrev S1x5000x4 : Shape := ⟨3, ![1, 5000, 4]⟩
abbrev S4x4 : Shape := ⟨2, ![4, 4]⟩
abbrev S1x4 : Shape := ⟨2, ![1, 4]⟩
abbrev S5000x2 : Shape := ⟨2, ![5000, 2]⟩
abbrev S1x5000x2 : Shape := ⟨3, ![1, 5000, 2]⟩

abbrev nBuf : Space → Nat
  | .hbm => 110
  | .vmem => 11
  | .smem => 0
  | _ => 0

abbrev bufTy : (tb : Table) → Fin (tcTables nBuf tb) → BufTy
  | .hbm, ⟨0, _⟩ => ⟨S16x25000x3, .f32⟩
  | .hbm, ⟨1, _⟩ => ⟨S16x25000x192, .f32⟩
  | .hbm, ⟨2, _⟩ => ⟨S195x3, .f32⟩
  | .hbm, ⟨3, _⟩ => ⟨S3, .f32⟩
  | .hbm, ⟨4, _⟩ => ⟨S195x4, .f32⟩
  | .hbm, ⟨5, _⟩ => ⟨S4, .f32⟩
  | .hbm, ⟨6, _⟩ => ⟨S195x3, .f32⟩
  | .hbm, ⟨7, _⟩ => ⟨S3, .f32⟩
  | .hbm, ⟨8, _⟩ => ⟨S195x1, .f32⟩
  | .hbm, ⟨9, _⟩ => ⟨S1, .f32⟩
  | .hbm, ⟨10, _⟩ => ⟨S195x3, .f32⟩
  | .hbm, ⟨11, _⟩ => ⟨S3, .f32⟩
  | .hbm, ⟨12, _⟩ => ⟨S16x3x3, .f32⟩
  | .hbm, ⟨13, _⟩ => ⟨S16x4x4, .f32⟩
  | .hbm, ⟨14, _⟩ => ⟨S195x14, .f32⟩
  | .hbm, ⟨15, _⟩ => ⟨S14, .f32⟩
  | .hbm, ⟨16, _⟩ => ⟨S1x14, .f32⟩
  | .hbm, ⟨17, _⟩ => ⟨S3x14, .f32⟩
  | .hbm, ⟨18, _⟩ => ⟨S192x14, .f32⟩
  | .hbm, ⟨19, _⟩ => ⟨S16x4x4, .f32⟩
  | .hbm, ⟨20, _⟩ => ⟨S16x1x1, .f32⟩
  | .hbm, ⟨21, _⟩ => ⟨S16, .f32⟩
  | .hbm, ⟨22, _⟩ => ⟨S16x1x1, .f32⟩
  | .hbm, ⟨23, _⟩ => ⟨S16, .f32⟩
  | .hbm, ⟨24, _⟩ => ⟨S16x1x1, .f32⟩
  | .hbm, ⟨25, _⟩ => ⟨S16, .f32⟩
  | .hbm, ⟨26, _⟩ => ⟨S16x1x1, .f32⟩
  | .hbm, ⟨27, _⟩ => ⟨S16, .f32⟩
  | .hbm, ⟨28, _⟩ => ⟨S_, .f32⟩
  | .hbm, ⟨29, _⟩ => ⟨S16x4x4, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S16x4x4, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S16x4x4, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S16x4x4, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S_, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S2, .i32⟩
  | .hbm, ⟨83, _⟩ => ⟨S16x4x4, .f32⟩
  | .hbm, ⟨84, _⟩ => ⟨S_, .i32⟩
  | .hbm, ⟨85, _⟩ => ⟨S1, .i32⟩
  | .hbm, ⟨86, _⟩ => ⟨S_, .i32⟩
  | .hbm, ⟨87, _⟩ => ⟨S1, .i32⟩
  | .hbm, ⟨88, _⟩ => ⟨S2, .i32⟩
  | .hbm, ⟨89, _⟩ => ⟨S_, .f32⟩
  | .hbm, ⟨90, _⟩ => ⟨S16, .f32⟩
  | .hbm, ⟨91, _⟩ => ⟨S16x4x4, .f32⟩
  | .hbm, ⟨92, _⟩ => ⟨S_, .i32⟩
  | .hbm, ⟨93, _⟩ => ⟨S1, .i32⟩
  | .hbm, ⟨94, _⟩ => ⟨S_, .i32⟩
  | .hbm, ⟨95, _⟩ => ⟨S1, .i32⟩
  | .hbm, ⟨96, _⟩ => ⟨S2, .i32⟩
  | .hbm, ⟨97, _⟩ => ⟨S_, .f32⟩
  | .hbm, ⟨98, _⟩ => ⟨S16, .f32⟩
  | .hbm, ⟨99, _⟩ => ⟨S16x4x4, .f32⟩
  | .hbm, ⟨100, _⟩ => ⟨S_, .i32⟩
  | .hbm, ⟨101, _⟩ => ⟨S1, .i32⟩
  | .hbm, ⟨102, _⟩ => ⟨S_, .i32⟩
  | .hbm, ⟨103, _⟩ => ⟨S1, .i32⟩
  | .hbm, ⟨104, _⟩ => ⟨S2, .i32⟩
  | .hbm, ⟨105, _⟩ => ⟨S_, .f32⟩
  | .hbm, ⟨106, _⟩ => ⟨S16, .f32⟩
  | .hbm, ⟨107, _⟩ => ⟨S16x4x4, .f32⟩
  | .hbm, ⟨108, _⟩ => ⟨S16x4x4, .f32⟩
  | .hbm, ⟨109, _⟩ => ⟨S16x25000x14, .f32⟩
  | .local _ .vmem, ⟨0, _⟩ => ⟨S1x5000x3, .f32⟩
  | .local _ .vmem, ⟨1, _⟩ => ⟨S1x5000x3, .f32⟩
  | .local _ .vmem, ⟨2, _⟩ => ⟨S1x5000x192, .f32⟩
  | .local _ .vmem, ⟨3, _⟩ => ⟨S1x5000x192, .f32⟩
  | .local _ .vmem, ⟨4, _⟩ => ⟨S1x4x4, .f32⟩
  | .local _ .vmem, ⟨5, _⟩ => ⟨S1x4x4, .f32⟩
  | .local _ .vmem, ⟨6, _⟩ => ⟨S3x14, .f32⟩
  | .local _ .vmem, ⟨7, _⟩ => ⟨S192x14, .f32⟩
  | .local _ .vmem, ⟨8, _⟩ => ⟨S1x14, .f32⟩
  | .local _ .vmem, ⟨9, _⟩ => ⟨S1x5000x14, .f32⟩
  | .local _ .vmem, ⟨10, _⟩ => ⟨S1x5000x14, .f32⟩
  | _, _ => ⟨S16x25000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_cst_9 : Ref sig .tc := ⟨.hbm, 60, rfl⟩
abbrev main_v35 : Ref sig .tc := ⟨.hbm, 61, rfl⟩
abbrev main_v36 : Ref sig .tc := ⟨.hbm, 62, rfl⟩
abbrev main_c_10 : Ref sig .tc := ⟨.hbm, 63, rfl⟩
abbrev main_v37 : Ref sig .tc := ⟨.hbm, 64, rfl⟩
abbrev main_c_11 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_12 : Ref sig .tc := ⟨.hbm, 69, rfl⟩
abbrev main_v41 : Ref sig .tc := ⟨.hbm, 70, rfl⟩
abbrev main_v42 : Ref sig .tc := ⟨.hbm, 71, rfl⟩
abbrev main_cst_13 : Ref sig .tc := ⟨.hbm, 72, rfl⟩
abbrev main_v43 : Ref sig .tc := ⟨.hbm, 73, rfl⟩
abbrev main_v44 : Ref sig .tc := ⟨.hbm, 74, rfl⟩
abbrev main_cst_14 : Ref sig .tc := ⟨.hbm, 75, rfl⟩
abbrev main_v45 : Ref sig .tc := ⟨.hbm, 76, rfl⟩
abbrev main_v46 : Ref sig .tc := ⟨.hbm, 77, rfl⟩
abbrev main_c_15 : Ref sig .tc := ⟨.hbm, 78, rfl⟩
abbrev main_v47 : Ref sig .tc := ⟨.hbm, 79, rfl⟩
abbrev main_c_16 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_17 : Ref sig .tc := ⟨.hbm, 84, rfl⟩
abbrev main_v51 : Ref sig .tc := ⟨.hbm, 85, rfl⟩
abbrev main_c_18 : Ref sig .tc := ⟨.hbm, 86, rfl⟩
abbrev main_v52 : Ref sig .tc := ⟨.hbm, 87, rfl⟩
abbrev main_v53 : Ref sig .tc := ⟨.hbm, 88, rfl⟩
abbrev main_cst_19 : Ref sig .tc := ⟨.hbm, 89, rfl⟩
abbrev main_v54 : Ref sig .tc := ⟨.hbm, 90, rfl⟩
abbrev main_v55 : Ref sig .tc := ⟨.hbm, 91, rfl⟩
abbrev main_c_20 : Ref sig .tc := ⟨.hbm, 92, rfl⟩
abbrev main_v56 : Ref sig .tc := ⟨.hbm, 93, rfl⟩
abbrev main_c_21 : Ref sig .tc := ⟨.hbm, 94, rfl⟩
abbrev main_v57 : Ref sig .tc := ⟨.hbm, 95, rfl⟩
abbrev main_v58 : Ref sig .tc := ⟨.hbm, 96, rfl⟩
abbrev main_cst_22 : Ref sig .tc := ⟨.hbm, 97, rfl⟩
abbrev main_v59 : Ref sig .tc := ⟨.hbm, 98, rfl⟩
abbrev main_v60 : Ref sig .tc := ⟨.hbm, 99, rfl⟩
abbrev main_c_23 : Ref sig .tc := ⟨.hbm, 100, rfl⟩
abbrev main_v61 : Ref sig .tc := ⟨.hbm, 101, rfl⟩
abbrev main_c_24 : Ref sig .tc := ⟨.hbm, 102, rfl⟩
abbrev main_v62 : Ref sig .tc := ⟨.hbm, 103, rfl⟩
abbrev main_v63 : Ref sig .tc := ⟨.hbm, 104, rfl⟩
abbrev main_cst_25 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5000x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x14 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S192x14 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x14 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x5000x14 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  concatenates_S195x3_S195x4_S195x3_S195x1_S195x3_S195x14_d1 : Shape.Concatenates [S195x3, S195x4, S195x3, S195x1, S195x3] S195x14 1
  concatenates_S3_S4_S3_S1_S3_S14_d0 : Shape.Concatenates [S3, S4, S3, S1, S3] S14 0
  bcast_S14_S1x14_1 : S14.BroadcastsInDim S1x14 (![1] : Fin 1 → Fin S1x14.rank)
  slices_S195x14_S3x14_0_0 : S195x14.Slices ![0, 0] S3x14
  slices_S195x14_S192x14_3_0 : S195x14.Slices ![3, 0] S192x14
  transposes_S16x4x4_S16x4x4_0_2_1 : S16x4x4.Transposes [0, 2, 1] S16x4x4
  slices_S16x3x3_S16x1x1_0_0_0 : S16x3x3.Slices ![0, 0, 0] S16x1x1
  shapeCasts_S16x1x1_S16 : S16x1x1.ShapeCasts S16
  slices_S16x3x3_S16x1x1_0_1_1 : S16x3x3.Slices ![0, 1, 1] S16x1x1
  slices_S16x3x3_S16x1x1_0_0_2 : S16x3x3.Slices ![0, 0, 2] S16x1x1
  slices_S16x3x3_S16x1x1_0_1_2 : S16x3x3.Slices ![0, 1, 2] S16x1x1
  bcast_S_S16x4x4 : S_.BroadcastsInDim S16x4x4 (![] : Fin 0 → Fin S16x4x4.rank)
  bcast_S_S16 : S_.BroadcastsInDim S16 (![] : Fin 0 → Fin S16.rank)
  bcast_S_S1 : S_.BroadcastsInDim S1 (![] : Fin 0 → Fin S1.rank)
  concatenates_S1_S1_S2_d0 : Shape.Concatenates [S1, S1] S2 0
  inb_S1x5000x3_S1x5000x3_0_0_0 : ∀ a, (![0, 0, 0] : Fin 3 → Nat) a + S1x5000x3.size a ≤ S1x5000x3.size a
  h_S1x5000x3 : 0 < S1x5000x3.numel
  shapeCasts_S1x5000x3_S5000x3 : S1x5000x3.ShapeCasts S5000x3
  inb_S1x5000x192_S1x5000x192_0_0_0 : ∀ a, (![0, 0, 0] : Fin 3 → Nat) a + S1x5000x192.size a ≤ S1x5000x192.size a
  h_S1x5000x192 : 0 < S1x5000x192.numel
  shapeCasts_S1x5000x192_S5000x192 : S1x5000x192.ShapeCasts S5000x192
  bitsLt_bf16_f32 : FTy.bits .bf16 < FTy.bits .f32
  inb_S3x14_S3x14_0_0 : ∀ a, (![0, 0] : Fin 2 → Nat) a + S3x14.size a ≤ S3x14.size a
  h_S3x14 : 0 < S3x14.numel
  shapeCasts_S3x14_S3x14 : S3x14.ShapeCasts S3x14
  inb_S192x14_S192x14_0_0 : ∀ a, (![0, 0] : Fin 2 → Nat) a + S192x14.size a ≤ S192x14.size a
  h_S192x14 : 0 < S192x14.numel
  shapeCasts_S192x14_S192x14 : S192x14.ShapeCasts S192x14
  inb_S1x14_S1x14_0_0 : ∀ a, (![0, 0] : Fin 2 → Nat) a + S1x14.size a ≤ S1x14.size a
  h_S1x14 : 0 < S1x14.numel
  shapeCasts_S1x14_S1x14 : S1x14.ShapeCasts S1x14
  broadcasts_S1x14_S5000x14 : S1x14.Broadcasts S5000x14
  slices_S5000x14_o0_7_S5000x3 : S5000x14.Slices ![0, 7] S5000x3
  inb_S1x5000x14_S1x5000x3_0_0_3 : ∀ a, (![0, 0, 3] : Fin 3 → Nat) a + S1x5000x3.size a ≤ S1x5000x14.size a
  shapeCasts_S5000x3_S1x5000x3 : S5000x3.ShapeCasts S1x5000x3
  slices_S5000x14_o0_10_S5000x1 : S5000x14.Slices ![0, 10] S5000x1
  inb_S1x5000x14_S1x5000x1_0_0_6 : ∀ a, (![0, 0, 6] : Fin 3 → Nat) a + S1x5000x1.size a ≤ S1x5000x14.size a
  h_S1x5000x1 : 0 < S1x5000x1.numel
  shapeCasts_S1x5000x1_S5000x1 : S1x5000x1.ShapeCasts S5000x1
  shapeCasts_S5000x1_S1x5000x1 : S5000x1.ShapeCasts S1x5000x1
  slices_S5000x14_o0_11_S5000x3 : S5000x14.Slices ![0, 11] S5000x3
  inb_S1x5000x14_S1x5000x3_0_0_7 : ∀ a, (![0, 0, 7] : Fin 3 → Nat) a + S1x5000x3.size a ≤ S1x5000x14.size a
  slices_S5000x14_o0_3_S5000x4 : S5000x14.Slices ![0, 3] S5000x4
  reduces_S5000x4_S5000 : S5000x4.Reduces [1] S5000
  shapeCasts_S5000_S5000x1 : S5000.ShapeCasts S5000x1
  broadcasts_S5000x1_S5000x4 : S5000x1.Broadcasts S5000x4
  inb_S1x5000x14_S1x5000x4_0_0_10 : ∀ a, (![0, 0, 10] : Fin 3 → Nat) a + S1x5000x4.size a ≤ S1x5000x14.size a
  h_S1x5000x4 : 0 < S1x5000x4.numel
  shapeCasts_S1x5000x4_S5000x4 : S1x5000x4.ShapeCasts S5000x4
  shapeCasts_S5000x4_S1x5000x4 : S5000x4.ShapeCasts S1x5000x4
  slices_S5000x14_o0_0_S5000x3 : S5000x14.Slices ![0, 0] S5000x3
  inb_S1x4x4_S1x4x4_0_0_0 : ∀ a, (![0, 0, 0] : Fin 3 → Nat) a + S1x4x4.size a ≤ S1x4x4.size a
  h_S1x4x4 : 0 < S1x4x4.numel
  shapeCasts_S1x4x4_S4x4 : S1x4x4.ShapeCasts S4x4
  slices_S4x4_o0_0_S1x4 : S4x4.Slices ![0, 0] S1x4
  slices_S4x4_o1_0_S1x4 : S4x4.Slices ![1, 0] S1x4
  slices_S4x4_o2_0_S1x4 : S4x4.Slices ![2, 0] S1x4
  slices_S4x4_o3_0_S1x4 : S4x4.Slices ![3, 0] S1x4
  slices_S5000x3_o0_0_S5000x1 : S5000x3.Slices ![0, 0] S5000x1
  broadcasts_S1x4_S5000x4 : S1x4.Broadcasts S5000x4
  slices_S5000x3_o0_1_S5000x1 : S5000x3.Slices ![0, 1] S5000x1
  slices_S5000x3_o0_2_S5000x1 : S5000x3.Slices ![0, 2] S5000x1
  slices_S5000x4_o0_3_S5000x1 : S5000x4.Slices ![0, 3] S5000x1
  slices_S5000x4_o0_0_S5000x2 : S5000x4.Slices ![0, 0] S5000x2
  broadcasts_S5000x1_S5000x2 : S5000x1.Broadcasts S5000x2
  slices_S5000x4_o0_2_S5000x1 : S5000x4.Slices ![0, 2] S5000x1
  inb_S1x5000x14_S1x5000x2_0_0_0 : ∀ a, (![0, 0, 0] : Fin 3 → Nat) a + S1x5000x2.size a ≤ S1x5000x14.size a
  h_S1x5000x2 : 0 < S1x5000x2.numel
  shapeCasts_S1x5000x2_S5000x2 : S1x5000x2.ShapeCasts S5000x2
  shapeCasts_S5000x2_S1x5000x2 : S5000x2.ShapeCasts S1x5000x2
  inb_S1x5000x14_S1x5000x1_0_0_2 : ∀ a, (![0, 0, 2] : Fin 3 → Nat) a + S1x5000x1.size a ≤ S1x5000x14.size a
  scatter_S16x4x4_S2_S16_0_12_12_0_wf : ScatterDims.WF S16x4x4 S2 S16 [0] [1, 2] [1, 2] 0
  dot_S16x4x4_S16x4x4_S16x4x4_2_2_1_1_0_0_wf : DotDims.WF S16x4x4 S16x4x4 S16x4x4 [2] [2] [1] [1] [0] [0]
  dot_S5000x3_S3x14_S5000x14_1_0_0_1_n_n_wf : DotDims.WF S5000x3 S3x14 S5000x14 [1] [0] [0] [1] [] []
  dot_S5000x192_S192x14_S5000x14_1_0_0_1_n_n_wf : DotDims.WF S5000x192 S192x14 S5000x14 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x3.size a ≤ S16x25000x3.size a
  hwx0_0 : ∀ i : grid0.Coords, EltTy.bits .f32 = 32 ∨ (Rect.block (s := S16x25000x3) S1x5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x192.size a ≤ S16x25000x192.size a
  hwx0_1 : ∀ i : grid0.Coords, EltTy.bits .f32 = 32 ∨ (Rect.block (s := S16x25000x192) S1x5000x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x4.size a ≤ S16x4x4.size a
  hwx0_2 : ∀ i : grid0.Coords, EltTy.bits .f32 = 32 ∨ (Rect.block (s := S16x4x4) S1x4x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x14.size a ≤ S3x14.size a
  hwx0_3 : ∀ i : grid0.Coords, EltTy.bits .f32 = 32 ∨ (Rect.block (s := S3x14) S3x14.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x14.size a ≤ S192x14.size a
  hwx0_4 : ∀ i : grid0.Coords, EltTy.bits .f32 = 32 ∨ (Rect.block (s := S192x14) S192x14.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x14.size a ≤ S1x14.size a
  hwx0_5 : ∀ i : grid0.Coords, EltTy.bits .f32 = 32 ∨ (Rect.block (s := S1x14) S1x14.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x5000x14.size a ≤ S16x25000x14.size a
  hwx0_6 : ∀ i : grid0.Coords, EltTy.bits .f32 = 32 ∨ (Rect.block (s := S16x25000x14) S1x5000x14.size (cc0_transform_6 i) (hinb0_6 i)).WholeWords (EltTy.packing .f32)

variable [Facts₀]

def scatter_S16x4x4_S2_S16_0_12_12_0 : ScatterDims S16x4x4 S2 S16 where
  updateWindowDims := [0]
  insertedWindowDims := [1, 2]
  scatterDimsToOperandDims := [1, 2]
  indexVectorDim := 0
  wf := scatter_S16x4x4_S2_S16_0_12_12_0_wf
def dot_S16x4x4_S16x4x4_S16x4x4_2_2_1_1_0_0 : DotDims S16x4x4 S16x4x4 S16x4x4 where
  lhsContracting := [2]
  rhsContracting := [2]
  lhsNonContracting := [1]
  rhsNonContracting := [1]
  lhsBatch := [0]
  rhsBatch := [0]
  wf := dot_S16x4x4_S16x4x4_S16x4x4_2_2_1_1_0_0_wf
def dot_S5000x3_S3x14_S5000x14_1_0_0_1_n_n : DotDims S5000x3 S3x14 S5000x14 where
  lhsContracting := [1]
  rhsContracting := [0]
  lhsNonContracting := [0]
  rhsNonContracting := [1]
  lhsBatch := []
  rhsBatch := []
  wf := dot_S5000x3_S3x14_S5000x14_1_0_0_1_n_n_wf
def dot_S5000x192_S192x14_S5000x14_1_0_0_1_n_n : DotDims S5000x192 S192x14 S5000x14 where
  lhsContracting := [1]
  rhsContracting := [0]
  lhsNonContracting := [0]
  rhsNonContracting := [1]
  lhsBatch := []
  rhsBatch := []
  wf := dot_S5000x192_S192x14_S5000x14_1_0_0_1_n_n_wf

abbrev win0_0 : Pipeline.Window sig grid0 :=
  Pipeline.Window.ofSpec (Memref.whole main_arg0) S1x5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x5000x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v66) S1x4x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x14.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S192x14.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x14.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v67) S1x5000x14.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x25000x3 : Shape := ⟨3, ![16, 25000, 3]⟩
abbrev S16x25000x192 : Shape := ⟨3, ![16, 25000, 192]⟩
abbrev S195x3 : Shape := ⟨2, ![195, 3]⟩
abbrev S3 : Shape := ⟨1, ![3]⟩
abbrev S195x4 : Shape := ⟨2, ![195, 4]⟩
abbrev S4 : Shape := ⟨1, ![4]⟩
abbrev S195x1 : Shape := ⟨2, ![195, 1]⟩
abbrev S1 : Shape := ⟨1, ![1]⟩
abbrev S16x3x3 : Shape := ⟨3, ![16, 3, 3]⟩
abbrev S16x4x4 : Shape := ⟨3, ![16, 4, 4]⟩
abbrev S16x25000x195 : Shape := ⟨3, ![16, 25000, 195]⟩
abbrev S1x1x3 : Shape := ⟨3, ![1, 1, 3]⟩
abbrev S16x25000x4 : Shape := ⟨3, ![16, 25000, 4]⟩
abbrev S1x1x4 : Shape := ⟨3, ![1, 1, 4]⟩
abbrev S16x25000x1 : Shape := ⟨3, ![16, 25000, 1]⟩
abbrev S1x1x1 : Shape := ⟨3, ![1, 1, 1]⟩
abbrev S_ : Shape := ⟨0, ![]⟩
abbrev S16x25000 : Shape := ⟨2, ![16, 25000]⟩
abbrev S16x1x1 : Shape := ⟨3, ![16, 1, 1]⟩
abbrev S16 : Shape := ⟨1, ![16]⟩
abbrev S2 : Shape := ⟨1, ![2]⟩
abbrev S16x25000x2 : Shape := ⟨3, ![16, 25000, 2]⟩
abbrev S16x25000x14 : Shape := ⟨3, ![16, 25000, 14]⟩

abbrev nBuf : Space → Nat
  | .hbm => 174
  | .vmem => 0
  | .smem => 0
  | _ => 0

abbrev hbmTy0_0 (i : Nat) : BufTy := match i % 128 with
  | 0 => ⟨S16x25000x3, .f32⟩
  | 1 => ⟨S16x25000x192, .f32⟩
  | 2 => ⟨S195x3, .f32⟩
  | 3 => ⟨S3, .f32⟩
  | 4 => ⟨S195x4, .f32⟩
  | 5 => ⟨S4, .f32⟩
  | 6 => ⟨S195x3, .f32⟩
  | 7 => ⟨S3, .f32⟩
  | 8 => ⟨S195x1, .f32⟩
  | 9 => ⟨S1, .f32⟩
  | 10 => ⟨S195x3, .f32⟩
  | 11 => ⟨S3, .f32⟩
  | 12 => ⟨S16x3x3, .f32⟩
  | 13 => ⟨S16x4x4, .f32⟩
  | 14 => ⟨S16x25000x195, .f32⟩
  | 15 => ⟨S16x25000x3, .f32⟩
  | 16 => ⟨S1x1x3, .f32⟩
  | 17 => ⟨S16x25000x3, .f32⟩
  | 18 => ⟨S16x25000x3, .f32⟩
  | 19 => ⟨S16x25000x4, .f32⟩
  | 20 => ⟨S1x1x4, .f32⟩
  | 21 => ⟨S16x25000x4, .f32⟩
  | 22 => ⟨S16x25000x4, .f32⟩
  | 23 => ⟨S16x25000x3, .f32⟩
  | 24 => ⟨S1x1x3, .f32⟩
  | 25 => ⟨S16x25000x3, .f32⟩
  | 26 => ⟨S16x25000x3, .f32⟩
  | 27 => ⟨S16x25000x1, .f32⟩
  | 28 => ⟨S1x1x1, .f32⟩
  | 29 => ⟨S16x25000x1, .f32⟩
  | 30 => ⟨S16x25000x1, .f32⟩
  | 31 => ⟨S16x25000x3, .f32⟩
  | 32 => ⟨S1x1x3, .f32⟩
  | 33 => ⟨S16x25000x3, .f32⟩
  | 34 => ⟨S16x25000x3, .f32⟩
  | 35 => ⟨S16x25000x3, .f32⟩
  | 36 => ⟨S16x25000x4, .f32⟩
  | 37 => ⟨S_, .f32⟩
  | 38 => ⟨S16x25000, .f32⟩
  | 39 => ⟨S16x25000x1, .f32⟩
  | 40 => ⟨S16x25000x1, .f32⟩
  | 41 => ⟨S_, .f32⟩
  | 42 => ⟨S16x25000x1, .f32⟩
  | 43 => ⟨S16x25000x1, .f32⟩
  | 44 => ⟨S16x25000x4, .f32⟩
  | 45 => ⟨S16x25000x4, .f32⟩
  | 46 => ⟨S_, .f32⟩
  | 47 => ⟨S16x25000x3, .f32⟩
  | 48 => ⟨S16x25000x3, .f32⟩
  | 49 => ⟨S16x25000x3, .f32⟩
  | 50 => ⟨S_, .f32⟩
  | 51 => ⟨S16x25000x3, .f32⟩
  | 52 => ⟨S16x25000x3, .f32⟩
  | 53 => ⟨S16x25000x1, .f32⟩
  | 54 => ⟨S16x25000x1, .f32⟩
  | 55 => ⟨S_, .f32⟩
  | 56 => ⟨S16x25000x1, .f32⟩
  | 57 => ⟨S16x25000x1, .f32⟩
  | 58 => ⟨S_, .f32⟩
  | 59 => ⟨S16x25000x1, .f32⟩
  | 60 => ⟨S16x25000x1, .f32⟩
  | 61 => ⟨S_, .f32⟩
  | 62 => ⟨S_, .f32⟩
  | 63 => ⟨S_, .f32⟩
  | 64 => ⟨S16x25000x3, .f32⟩
  | 65 => ⟨S16x25000x3, .f32⟩
  | 66 => ⟨S_, .f32⟩
  | 67 => ⟨S16x25000x3, .f32⟩
  | 68 => ⟨S16x25000x3, .f32⟩
  | 69 => ⟨S16x4x4, .f32⟩
  | 70 => ⟨S16x1x1, .f32⟩
  | 71 => ⟨S16, .f32⟩
  | 72 => ⟨S16x1x1, .f32⟩
  | 73 => ⟨S16, .f32⟩
  | 74 => ⟨S16x1x1, .f32⟩
  | 75 => ⟨S16, .f32⟩
  | 76 => ⟨S16x1x1, .f32⟩
  | 77 => ⟨S16, .f32⟩
  | 78 => ⟨S_, .f32⟩
  | 79 => ⟨S16x4x4, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S_, .i32⟩
  | 87 => ⟨S1, .i32⟩
  | 88 => ⟨S_, .i32⟩
  | 89 => ⟨S1, .i32⟩
  | 90 => ⟨S2, .i32⟩
  | 91 => ⟨S16x4x4, .f32⟩
  | 92 => ⟨S_, .f32⟩
  | 93 => ⟨S16, .f32⟩
  | 94 => ⟨S16, .f32⟩
  | 95 => ⟨S_, .f32⟩
  | 96 => ⟨S16, .f32⟩
  | 97 => ⟨S16, .f32⟩
  | 98 => ⟨S_, .i32⟩
  | 99 => ⟨S1, .i32⟩
  | 100 => ⟨S_, .i32⟩
  | 101 => ⟨S1, .i32⟩
  | 102 => ⟨S2, .i32⟩
  | 103 => ⟨S16x4x4, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S_, .f32⟩
  | 111 => ⟨S16, .f32⟩
  | 112 => ⟨S16, .f32⟩
  | 113 => ⟨S_, .i32⟩
  | 114 => ⟨S1, .i32⟩
  | 115 => ⟨S_, .i32⟩
  | 116 => ⟨S1, .i32⟩
  | 117 => ⟨S2, .i32⟩
  | 118 => ⟨S16x4x4, .f32⟩
  | 119 => ⟨S_, .f32⟩
  | 120 => ⟨S16, .f32⟩
  | 121 => ⟨S16, .f32⟩
  | 122 => ⟨S_, .f32⟩
  | 123 => ⟨S16, .f32⟩
  | 124 => ⟨S16, .f32⟩
  | 125 => ⟨S_, .f32⟩
  | 126 => ⟨S16, .f32⟩
  | 127 => ⟨S16, .f32⟩
  | _ => ⟨S16x25000x3, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S16x4x4, .f32⟩
  | 6 => ⟨S_, .i32⟩
  | 7 => ⟨S1, .i32⟩
  | 8 => ⟨S_, .i32⟩
  | 9 => ⟨S1, .i32⟩
  | 10 => ⟨S2, .i32⟩
  | 11 => ⟨S_, .f32⟩
  | 12 => ⟨S16, .f32⟩
  | 13 => ⟨S16x4x4, .f32⟩
  | 14 => ⟨S_, .i32⟩
  | 15 => ⟨S1, .i32⟩
  | 16 => ⟨S_, .i32⟩
  | 17 => ⟨S1, .i32⟩
  | 18 => ⟨S2, .i32⟩
  | 19 => ⟨S_, .f32⟩
  | 20 => ⟨S16, .f32⟩
  | 21 => ⟨S16x4x4, .f32⟩
  | 22 => ⟨S_, .i32⟩
  | 23 => ⟨S1, .i32⟩
  | 24 => ⟨S_, .i32⟩
  | 25 => ⟨S1, .i32⟩
  | 26 => ⟨S2, .i32⟩
  | 27 => ⟨S_, .f32⟩
  | 28 => ⟨S16, .f32⟩
  | 29 => ⟨S16x4x4, .f32⟩
  | 30 => ⟨S16x4x4, .f32⟩
  | 31 => ⟨S16x25000x1, .f32⟩
  | 32 => ⟨S_, .f32⟩
  | 33 => ⟨S16x25000x1, .f32⟩
  | 34 => ⟨S16x25000x4, .f32⟩
  | 35 => ⟨S16x25000x4, .f32⟩
  | 36 => ⟨S16x25000x1, .f32⟩
  | 37 => ⟨S_, .f32⟩
  | 38 => ⟨S16x25000x1, .f32⟩
  | 39 => ⟨S16x25000x1, .f32⟩
  | 40 => ⟨S16x25000x2, .f32⟩
  | 41 => ⟨S16x25000x2, .f32⟩
  | 42 => ⟨S16x25000x2, .f32⟩
  | 43 => ⟨S16x25000x1, .f32⟩
  | 44 => ⟨S16x25000x1, .f32⟩
  | 45 => ⟨S16x25000x14, .f32⟩
  | _ => ⟨S16x25000x3, .f32⟩

abbrev hbmTy (i : Nat) : BufTy := match i / 128 with
  | 0 => hbmTy0_0 i
  | 1 => hbmTy0_1 i
  | _ => ⟨S16x25000x3, .f32⟩

abbrev bufTy : (tb : Table) → Fin (tcTables nBuf tb) → BufTy
  | .hbm, ⟨i, _⟩ => hbmTy i
  | _, _ => ⟨S16x25000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_1 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_cst_3 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_cst_5 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_6 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_c : Ref sig .tc := ⟨.hbm, 86, rfl⟩
abbrev main_v53 : Ref sig .tc := ⟨.hbm, 87, rfl⟩
abbrev main_c_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_10 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_v60 : Ref sig .tc := ⟨.hbm, 97, rfl⟩
abbrev main_c_12 : Ref sig .tc := ⟨.hbm, 98, rfl⟩
abbrev main_v61 : Ref sig .tc := ⟨.hbm, 99, rfl⟩
abbrev main_c_13 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_14 : Ref sig .tc := ⟨.hbm, 104, rfl⟩
abbrev main_v65 : Ref sig .tc := ⟨.hbm, 105, rfl⟩
abbrev main_v66 : Ref sig .tc := ⟨.hbm, 106, rfl⟩
abbrev main_cst_15 : Ref sig .tc := ⟨.hbm, 107, rfl⟩
abbrev main_v67 : Ref sig .tc := ⟨.hbm, 108, rfl⟩
abbrev main_v68 : Ref sig .tc := ⟨.hbm, 109, rfl⟩
abbrev main_cst_16 : Ref sig .tc := ⟨.hbm, 110, rfl⟩
abbrev main_v69 : Ref sig .tc := ⟨.hbm, 111, rfl⟩
abbrev main_v70 : Ref sig .tc := ⟨.hbm, 112, rfl⟩
abbrev main_c_17 : Ref sig .tc := ⟨.hbm, 113, rfl⟩
abbrev main_v71 : Ref sig .tc := ⟨.hbm, 114, rfl⟩
abbrev main_c_18 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_19 : Ref sig .tc := ⟨.hbm, 119, rfl⟩
abbrev main_v75 : Ref sig .tc := ⟨.hbm, 120, rfl⟩
abbrev main_v76 : Ref sig .tc := ⟨.hbm, 121, rfl⟩
abbrev main_cst_20 : Ref sig .tc := ⟨.hbm, 122, rfl⟩
abbrev main_v77 : Ref sig .tc := ⟨.hbm, 123, rfl⟩
abbrev main_v78 : Ref sig .tc := ⟨.hbm, 124, rfl⟩
abbrev main_cst_21 : Ref sig .tc := ⟨.hbm, 125, rfl⟩
abbrev main_v79 : Ref sig .tc := ⟨.hbm, 126, rfl⟩
abbrev main_v80 : Ref sig .tc := ⟨.hbm, 127, rfl⟩
abbrev main_c_22 : Ref sig .tc := ⟨.hbm, 128, rfl⟩
abbrev main_v81 : Ref sig .tc := ⟨.hbm, 129, rfl⟩
abbrev main_c_23 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_c_24 : Ref sig .tc := ⟨.hbm, 134, rfl⟩
abbrev main_v85 : Ref sig .tc := ⟨.hbm, 135, rfl⟩
abbrev main_c_25 : Ref sig .tc := ⟨.hbm, 136, rfl⟩
abbrev main_v86 : Ref sig .tc := ⟨.hbm, 137, rfl⟩
abbrev main_v87 : Ref sig .tc := ⟨.hbm, 138, rfl⟩
abbrev main_cst_26 : Ref sig .tc := ⟨.hbm, 139, rfl⟩
abbrev main_v88 : Ref sig .tc := ⟨.hbm, 140, rfl⟩
abbrev main_v89 : Ref sig .tc := ⟨.hbm, 141, rfl⟩
abbrev main_c_27 : Ref sig .tc := ⟨.hbm, 142, rfl⟩
abbrev main_v90 : Ref sig .tc := ⟨.hbm, 143, rfl⟩
abbrev main_c_28 : Ref sig .tc := ⟨.hbm, 144, rfl⟩
abbrev main_v91 : Ref sig .tc := ⟨.hbm, 145, rfl⟩
abbrev main_v92 : Ref sig .tc := ⟨.hbm, 146, rfl⟩
abbrev main_cst_29 : Ref sig .tc := ⟨.hbm, 147, rfl⟩
abbrev main_v93 : Ref sig .tc := ⟨.hbm, 148, rfl⟩
abbrev main_v94 : Ref sig .tc := ⟨.hbm, 149, rfl⟩
abbrev main_c_30 : Ref sig .tc := ⟨.hbm, 150, rfl⟩
abbrev main_v95 : Ref sig .tc := ⟨.hbm, 151, rfl⟩
abbrev main_c_31 : Ref sig .tc := ⟨.hbm, 152, rfl⟩
abbrev main_v96 : Ref sig .tc := ⟨.hbm, 153, rfl⟩
abbrev main_v97 : Ref sig .tc := ⟨.hbm, 154, rfl⟩
abbrev main_cst_32 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_33 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_34 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩

abbrev nD : Nat := 1
abbrev τ : Topo := Topo.v7x

variable {F : FTy → Type} [FloatOps F]

class Facts₀ : Prop where
  concatenates_S16x25000x3_S16x25000x192_S16x25000x195_d2 : Shape.Concatenates [S16x25000x3, S16x25000x192] S16x25000x195 2
  bcast_S3_S1x1x3_2 : S3.BroadcastsInDim S1x1x3 (![2] : Fin 1 → Fin S1x1x3.rank)
  bcast_S1x1x3_S16x25000x3_0_1_2 : S1x1x3.BroadcastsInDim S16x25000x3 (![0, 1, 2] : Fin 3 → Fin S16x25000x3.rank)
  bcast_S4_S1x1x4_2 : S4.BroadcastsInDim S1x1x4 (![2] : Fin 1 → Fin S1x1x4.rank)
  bcast_S1x1x4_S16x25000x4_0_1_2 : S1x1x4.BroadcastsInDim S16x25000x4 (![0, 1, 2] : Fin 3 → Fin S16x25000x4.rank)
  bcast_S1_S1x1x1_2 : S1.BroadcastsInDim S1x1x1 (![2] : Fin 1 → Fin S1x1x1.rank)
  bcast_S1x1x1_S16x25000x1_0_1_2 : S1x1x1.BroadcastsInDim S16x25000x1 (![0, 1, 2] : Fin 3 → Fin S16x25000x1.rank)
  reducesTo_S16x25000x4_S16x25000_d2 : S16x25000x4.ReducesTo [2] S16x25000
  h_S_ : 0 < S_.numel
  bcast_S16x25000_S16x25000x1_0_1 : S16x25000.BroadcastsInDim S16x25000x1 (![0, 1] : Fin 2 → Fin S16x25000x1.rank)
  bcast_S_S16x25000x1 : S_.BroadcastsInDim S16x25000x1 (![] : Fin 0 → Fin S16x25000x1.rank)
  bcast_S16x25000x1_S16x25000x4_0_1_2 : S16x25000x1.BroadcastsInDim S16x25000x4 (![0, 1, 2] : Fin 3 → Fin S16x25000x4.rank)
  bcast_S_S16x25000x3 : S_.BroadcastsInDim S16x25000x3 (![] : Fin 0 → Fin S16x25000x3.rank)
  transposes_S16x4x4_S16x4x4_0_2_1 : S16x4x4.Transposes [0, 2, 1] S16x4x4
  slices_S16x3x3_S16x1x1_0_0_0 : S16x3x3.Slices ![0, 0, 0] S16x1x1
  shapeCasts_S16x1x1_S16 : S16x1x1.ShapeCasts S16
  slices_S16x3x3_S16x1x1_0_1_1 : S16x3x3.Slices ![0, 1, 1] S16x1x1
  slices_S16x3x3_S16x1x1_0_0_2 : S16x3x3.Slices ![0, 0, 2] S16x1x1
  slices_S16x3x3_S16x1x1_0_1_2 : S16x3x3.Slices ![0, 1, 2] S16x1x1
  bcast_S_S16x4x4 : S_.BroadcastsInDim S16x4x4 (![] : Fin 0 → Fin S16x4x4.rank)
  bcast_S_S16 : S_.BroadcastsInDim S16 (![] : Fin 0 → Fin S16.rank)
  bcast_S_S1 : S_.BroadcastsInDim S1 (![] : Fin 0 → Fin S1.rank)
  concatenates_S1_S1_S2_d0 : Shape.Concatenates [S1, S1] S2 0
  slices_S16x25000x3_S16x25000x1_0_0_0 : S16x25000x3.Slices ![0, 0, 0] S16x25000x1
  concatenates_S16x25000x3_S16x25000x1_S16x25000x4_d2 : Shape.Concatenates [S16x25000x3, S16x25000x1] S16x25000x4 2
  slices_S16x25000x4_S16x25000x1_0_0_3 : S16x25000x4.Slices ![0, 0, 3] S16x25000x1
  slices_S16x25000x4_S16x25000x2_0_0_0 : S16x25000x4.Slices ![0, 0, 0] S16x25000x2
  bcast_S16x25000x1_S16x25000x2_0_1_2 : S16x25000x1.BroadcastsInDim S16x25000x2 (![0, 1, 2] : Fin 3 → Fin S16x25000x2.rank)
  slices_S16x25000x4_S16x25000x1_0_0_2 : S16x25000x4.Slices ![0, 0, 2] S16x25000x1
  concatenates_S16x25000x2_S16x25000x1_S16x25000x3_S16x25000x1_S16x25000x3_S16x25000x4_S16x25000x14_d2 : Shape.Concatenates [S16x25000x2, S16x25000x1, S16x25000x3, S16x25000x1, S16x25000x3, S16x25000x4] S16x25000x14 2
  dot_S16x25000x195_S195x3_S16x25000x3_2_0_01_1_n_n_wf : DotDims.WF S16x25000x195 S195x3 S16x25000x3 [2] [0] [0, 1] [1] [] []
  dot_S16x25000x195_S195x4_S16x25000x4_2_0_01_1_n_n_wf : DotDims.WF S16x25000x195 S195x4 S16x25000x4 [2] [0] [0, 1] [1] [] []
  dot_S16x25000x195_S195x1_S16x25000x1_2_0_01_1_n_n_wf : DotDims.WF S16x25000x195 S195x1 S16x25000x1 [2] [0] [0, 1] [1] [] []
  scatter_S16x4x4_S2_S16_0_12_12_0_wf : ScatterDims.WF S16x4x4 S2 S16 [0] [1, 2] [1, 2] 0
  dot_S16x4x4_S16x4x4_S16x4x4_2_2_1_1_0_0_wf : DotDims.WF S16x4x4 S16x4x4 S16x4x4 [2] [2] [1] [1] [0] [0]
  dot_S16x25000x4_S16x4x4_S16x25000x4_2_1_1_2_0_0_wf : DotDims.WF S16x25000x4 S16x4x4 S16x25000x4 [2] [1] [1] [2] [0] [0]

variable [Facts₀]

def dot_S16x25000x195_S195x3_S16x25000x3_2_0_01_1_n_n : DotDims S16x25000x195 S195x3 S16x25000x3 where
  lhsContracting := [2]
  rhsContracting := [0]
  lhsNonContracting := [0, 1]
  rhsNonContracting := [1]
  lhsBatch := []
  rhsBatch := []
  wf := dot_S16x25000x195_S195x3_S16x25000x3_2_0_01_1_n_n_wf
def dot_S16x25000x195_S195x4_S16x25000x4_2_0_01_1_n_n : DotDims S16x25000x195 S195x4 S16x25000x4 where
  lhsContracting := [2]
  rhsContracting := [0]
  lhsNonContracting := [0, 1]
  rhsNonContracting := [1]
  lhsBatch := []
  rhsBatch := []
  wf := dot_S16x25000x195_S195x4_S16x25000x4_2_0_01_1_n_n_wf
def dot_S16x25000x195_S195x1_S16x25000x1_2_0_01_1_n_n : DotDims S16x25000x195 S195x1 S16x25000x1 where
  lhsContracting := [2]
  rhsContracting := [0]
  lhsNonContracting := [0, 1]
  rhsNonContracting := [1]
  lhsBatch := []
  rhsBatch := []
  wf := dot_S16x25000x195_S195x1_S16x25000x1_2_0_01_1_n_n_wf
def scatter_S16x4x4_S2_S16_0_12_12_0 : ScatterDims S16x4x4 S2 S16 where
  updateWindowDims := [0]
  insertedWindowDims := [1, 2]
  scatterDimsToOperandDims := [1, 2]
  indexVectorDim := 0
  wf := scatter_S16x4x4_S2_S16_0_12_12_0_wf
def dot_S16x4x4_S16x4x4_S16x4x4_2_2_1_1_0_0 : DotDims S16x4x4 S16x4x4 S16x4x4 where
  lhsContracting := [2]
  rhsContracting := [2]
  lhsNonContracting := [1]
  rhsNonContracting := [1]
  lhsBatch := [0]
  rhsBatch := [0]
  wf := dot_S16x4x4_S16x4x4_S16x4x4_2_2_1_1_0_0_wf
def dot_S16x25000x4_S16x4x4_S16x25000x4_2_1_1_2_0_0 : DotDims S16x25000x4 S16x4x4 S16x25000x4 where
  lhsContracting := [2]
  rhsContracting := [1]
  lhsNonContracting := [1]
  rhsNonContracting := [2]
  lhsBatch := [0]
  rhsBatch := [0]
  wf := dot_S16x25000x4_S16x4x4_S16x25000x4_2_1_1_2_0_0_wf

class Facts : Prop extends Facts₀ where

variable [Facts]
-- ==== Proof.KernelFrame.lean ====
/-
  The frame of this program: the decoder-and-projection kernel runs at each of its 16 × 5 grid points on one block of
  5000 points, after a stretch of host operations that builds the concatenated weights, the bias row and the 16
  projection matrices.  Every run terminates, nothing faults, and the fourteen argument arrays end as they started:
  the host operations write only their own result buffers, two arguments are staged block by block and read only,
  and the others are touched by no window.

  What the body leaves in its output block is six stores through column ranges 3–5, 6, 7–9, 10–13, 0–1 and 2 of the
  block's 14 columns; together they tile it, so the block afterwards is the overlay of the six stored values,
  whatever it held before (the body also reads those ranges before storing, and uses none of what it read).
-/
import proofs.«172457_j36189394436976_2_alg».proof.Proof.Gen.Kernel.Launch
import proofs.«172457_j36189394436976_2_alg».proof.Proof.Gen.Kernel.Skeleton
import proofs.«172457_j36189394436976_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The buffers of one core when the region is entered: the launch contents after the host operations. -/
abbrev V (c : Dev nD) (b : Ref sig .tc) : Buf (Elt F) ((c : Thread nD τ).loc b) := StableHlo.after hostOps0 (fun b => m (c, b)) b

set_option maxHeartbeats 4000000 in
theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 200000

/-! ## The windows' blocks -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or
    the block index has not moved since it was fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the arrays -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses -/

abbrev rPts : Rect S1x5000x3 := Rect.unit (s := S1x5000x3) ![0, 0, 0] S1x5000x3.size inb_S1x5000x3_S1x5000x3_0_0_0
abbrev rFts : Rect S1x5000x192 := Rect.unit (s := S1x5000x192) ![0, 0, 0] S1x5000x192.size inb_S1x5000x192_S1x5000x192_0_0_0
abbrev rPrj : Rect S1x4x4 := Rect.unit (s := S1x4x4) ![0, 0, 0] S1x4x4.size inb_S1x4x4_S1x4x4_0_0_0
abbrev rWp : Rect S3x14 := Rect.unit (s := S3x14) ![0, 0] S3x14.size inb_S3x14_S3x14_0_0
abbrev rWf : Rect S192x14 := Rect.unit (s := S192x14) ![0, 0] S192x14.size inb_S192x14_S192x14_0_0
abbrev rB : Rect S1x14 := Rect.unit (s := S1x14) ![0, 0] S1x14.size inb_S1x14_S1x14_0_0
abbrev rO3 : Rect S1x5000x14 := Rect.unit (s := S1x5000x14) ![0, 0, 3] S1x5000x3.size inb_S1x5000x14_S1x5000x3_0_0_3
abbrev rO6 : Rect S1x5000x14 := Rect.unit (s := S1x5000x14) ![0, 0, 6] S1x5000x1.size inb_S1x5000x14_S1x5000x1_0_0_6
abbrev rO7 : Rect S1x5000x14 := Rect.unit (s := S1x5000x14) ![0, 0, 7] S1x5000x3.size inb_S1x5000x14_S1x5000x3_0_0_7
abbrev rO10 : Rect S1x5000x14 := Rect.unit (s := S1x5000x14) ![0, 0, 10] S1x5000x4.size inb_S1x5000x14_S1x5000x4_0_0_10
abbrev rO0 : Rect S1x5000x14 := Rect.unit (s := S1x5000x14) ![0, 0, 0] S1x5000x2.size inb_S1x5000x14_S1x5000x2_0_0_0
abbrev rO2 : Rect S1x5000x14 := Rect.unit (s := S1x5000x14) ![0, 0, 2] S1x5000x1.size inb_S1x5000x14_S1x5000x1_0_0_2

/-! ## What the body leaves in the output block -/

/-- The 14 decoder outputs of every point of the block, before the activations. -/
def heads (x0 : Vec F S1x5000x3 .f32) (x1 : Vec F S1x5000x192 .f32) (x3 : Vec F S3x14 .f32) (x4 : Vec F S192x14 .f32) (x5 : Vec F S1x14 .f32) : FVec F S5000x14 .f32 :=
  k0_pay5 (View.ld x0 rPts) (View.ld x1 rFts) (View.ld x3 rWp) (View.ld x4 rWf) (View.ld x5 rB)

/-- The clip-space coordinates of every point of the block. -/
def clipc (x0 : Vec F S1x5000x3 .f32) (x1 : Vec F S1x5000x192 .f32) (x2 : Vec F S1x4x4 .f32) (x3 : Vec F S3x14 .f32) (x4 : Vec F S192x14 .f32) (x5 : Vec F S1x14 .f32) : FVec F S5000x4 .f32 :=
  k0_pay10 (k0_pay4 (View.ld x0 rPts)) (heads x0 x1 x3 x4 x5) (View.ld x2 rPrj)

/-- Their fourth column. -/
def clipw (x0 : Vec F S1x5000x3 .f32) (x1 : Vec F S1x5000x192 .f32) (x2 : Vec F S1x4x4 .f32) (x3 : Vec F S3x14 .f32) (x4 : Vec F S192x14 .f32) (x5 : Vec F S1x14 .f32) : FVec F S5000x1 .f32 :=
  k0_pay11 (k0_pay4 (View.ld x0 rPts)) (heads x0 x1 x3 x4 x5) (View.ld x2 rPrj)

/-- The output block after the body, from the six input blocks: its six stores, the last first. -/
def out0_6 (x0 : Vec F S1x5000x3 .f32) (x1 : Vec F S1x5000x192 .f32) (x2 : Vec F S1x4x4 .f32) (x3 : Vec F S3x14 .f32) (x4 : Vec F S192x14 .f32) (x5 : Vec F S1x14 .f32) : Vec F S1x5000x14 .f32 :=
  View.canon [⟨rO2, k0_pay3 (clipc x0 x1 x2 x3 x4 x5) (clipw x0 x1 x2 x3 x4 x5)⟩,
    ⟨rO0, k0_pay2 (clipc x0 x1 x2 x3 x4 x5) (clipw x0 x1 x2 x3 x4 x5)⟩,
    ⟨rO10, k0_pay9 (heads x0 x1 x3 x4 x5)⟩,
    ⟨rO7, k0_pay8 (heads x0 x1 x3 x4 x5)⟩,
    ⟨rO6, k0_pay7 (View.ld x0 rPts) (View.ld x1 rFts) (View.ld x3 rWp) (View.ld x4 rWf) (View.ld x5 rB)⟩,
    ⟨rO3, k0_pay6 (View.ld x0 rPts) (View.ld x1 rFts) (View.ld x3 rWp) (View.ld x4 rWf) (View.ld x5 rB)⟩]

/-- The six column ranges tile the block's 14 columns: cut into single columns they are the 14 columns, each once. -/
theorem cover0_6 (p0 : Vec F S1x5000x1 .f32) (p1 : Vec F S1x5000x2 .f32) (p2 : Vec F S1x5000x4 .f32) (p3 : Vec F S1x5000x3 .f32)
    (p4 : Vec F S1x5000x1 .f32) (p5 : Vec F S1x5000x3 .f32) (y : S1x5000x14.Idx) :
    ∃ pc ∈ ([⟨rO2, p0⟩, ⟨rO0, p1⟩, ⟨rO10, p2⟩, ⟨rO7, p3⟩, ⟨rO6, p4⟩, ⟨rO3, p5⟩] : List (View.Piece (Elt F) S1x5000x14 .f32)), y ∈ pc.1.set :=
  View.cover_of_tiledBy [⟨rO2, p0⟩, ⟨rO0, p1⟩, ⟨rO10, p2⟩, ⟨rO7, p3⟩, ⟨rO6, p4⟩, ⟨rO3, p5⟩] ![1, 5000, 1] (by sl_kernel_rfl) y

end Cert.Kernel.Gen

end
-- ==== Proof.KernelRun.lean ====
/-
  The body's run at one grid point, and the program's run.

  At a point the six input blocks are in their staging buffers and the output's staging buffer holds anything.  The
  body reads the inputs whole, reads and overwrites six column ranges of the output buffer, and returns; afterwards
  the inputs are as they were and the output buffer holds the overlay of the six stored values, because the ranges
  tile the block.  Threading this through the 80 points of the grid, after the host operations, gives the run of the
  whole program with every array named: the arguments unchanged, the result array block by block what the body
  left at the point that wrote that block.
-/
import proofs.«172457_j36189394436976_2_alg».proof.Proof.KernelFrame

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole staging buffers, the inputs' at contents `x0 … x5` and the output's at anything, runs to its
    return with the inputs' as they were and the output's at the overlay of its six stores. -/
theorem sound_kernel (c : Dev nD) (E : Set ℕ) (i : grid0.Coords) (arg2 : Memref sig .tc .vmem S1x5000x3 .f32) (harg2 : arg2.IsWhole) (arg3 : Memref sig .tc .vmem S1x5000x192 .f32) (harg3 : arg3.IsWhole) (arg4 : Memref sig .tc .vmem S1x4x4 .f32) (harg4 : arg4.IsWhole) (arg5 : Memref sig .tc .vmem S3x14 .f32) (harg5 : arg5.IsWhole) (arg6 : Memref sig .tc .vmem S192x14 .f32) (harg6 : arg6.IsWhole) (arg7 : Memref sig .tc .vmem S1x14 .f32) (harg7 : arg7.IsWhole) (arg8 : Memref sig .tc .vmem S1x5000x14 .f32) (harg8 : arg8.IsWhole)
    (x0 : Vec F S1x5000x3 .f32) (x1 : Vec F S1x5000x192 .f32) (x2 : Vec F S1x4x4 .f32) (x3 : Vec F S3x14 .f32) (x4 : Vec F S192x14 .f32) (x5 : Vec F S1x14 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5)) -∗ K ⟨⟩))
      ⊢ wp frame (wpE (defs₀ (F := F)) Variants.none c none) E (cc0__decoder_camera_kernel i arg2 harg2 arg3 harg3 arg4 harg4 arg5 harg5 arg6 harg6 arg7 harg7 arg8 harg8) K := by
  simp only [cc0__decoder_camera_kernel_eq_skeleton]; unfold cc0__decoder_camera_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _ _ _ _ _ _)

/-! ## The proof data -/

/-- The arrays as the region finds them; after the body at a point each input's buffer at its block and the output's
    at the overlay of the six stores computed from the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and leaves its fourteen arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Gen

end
-- ==== Proof.KernelIdealFrame.lean ====
/-
  The frame of this program: the decoder-and-projection kernel runs at each of its 16 × 5 grid points on one block of
  5000 points, after a stretch of host operations that builds the concatenated weights, the bias row and the 16
  projection matrices.  Every run terminates, nothing faults, and the fourteen argument arrays end as they started:
  the host operations write only their own result buffers, two arguments are staged block by block and read only,
  and the others are touched by no window.

  What the body leaves in its output block is six stores through column ranges 3–5, 6, 7–9, 10–13, 0–1 and 2 of the
  block's 14 columns; together they tile it, so the block afterwards is the overlay of the six stored values,
  whatever it held before (the body also reads those ranges before storing, and uses none of what it read).
-/
import proofs.«172457_j36189394436976_2_alg».proof.Proof.Gen.KernelIdeal.Launch
import proofs.«172457_j36189394436976_2_alg».proof.Proof.Gen.KernelIdeal.Skeleton
import proofs.«172457_j36189394436976_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The buffers of one core when the region is entered: the launch contents after the host operations. -/
abbrev V (c : Dev nD) (b : Ref sig .tc) : Buf (Elt F) ((c : Thread nD τ).loc b) := StableHlo.after hostOps0 (fun b => m (c, b)) b

set_option maxHeartbeats 4000000 in
theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 200000

/-! ## The windows' blocks -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or
    the block index has not moved since it was fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the arrays -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses -/

abbrev rPts : Rect S1x5000x3 := Rect.unit (s := S1x5000x3) ![0, 0, 0] S1x5000x3.size inb_S1x5000x3_S1x5000x3_0_0_0
abbrev rFts : Rect S1x5000x192 := Rect.unit (s := S1x5000x192) ![0, 0, 0] S1x5000x192.size inb_S1x5000x192_S1x5000x192_0_0_0
abbrev rPrj : Rect S1x4x4 := Rect.unit (s := S1x4x4) ![0, 0, 0] S1x4x4.size inb_S1x4x4_S1x4x4_0_0_0
abbrev rWp : Rect S3x14 := Rect.unit (s := S3x14) ![0, 0] S3x14.size inb_S3x14_S3x14_0_0
abbrev rWf : Rect S192x14 := Rect.unit (s := S192x14) ![0, 0] S192x14.size inb_S192x14_S192x14_0_0
abbrev rB : Rect S1x14 := Rect.unit (s := S1x14) ![0, 0] S1x14.size inb_S1x14_S1x14_0_0
abbrev rO3 : Rect S1x5000x14 := Rect.unit (s := S1x5000x14) ![0, 0, 3] S1x5000x3.size inb_S1x5000x14_S1x5000x3_0_0_3
abbrev rO6 : Rect S1x5000x14 := Rect.unit (s := S1x5000x14) ![0, 0, 6] S1x5000x1.size inb_S1x5000x14_S1x5000x1_0_0_6
abbrev rO7 : Rect S1x5000x14 := Rect.unit (s := S1x5000x14) ![0, 0, 7] S1x5000x3.size inb_S1x5000x14_S1x5000x3_0_0_7
abbrev rO10 : Rect S1x5000x14 := Rect.unit (s := S1x5000x14) ![0, 0, 10] S1x5000x4.size inb_S1x5000x14_S1x5000x4_0_0_10
abbrev rO0 : Rect S1x5000x14 := Rect.unit (s := S1x5000x14) ![0, 0, 0] S1x5000x2.size inb_S1x5000x14_S1x5000x2_0_0_0
abbrev rO2 : Rect S1x5000x14 := Rect.unit (s := S1x5000x14) ![0, 0, 2] S1x5000x1.size inb_S1x5000x14_S1x5000x1_0_0_2

/-! ## What the body leaves in the output block -/

/-- The 14 decoder outputs of every point of the block, before the activations. -/
def heads (x0 : Vec F S1x5000x3 .f32) (x1 : Vec F S1x5000x192 .f32) (x3 : Vec F S3x14 .f32) (x4 : Vec F S192x14 .f32) (x5 : Vec F S1x14 .f32) : FVec F S5000x14 .f32 :=
  k0_pay5 (View.ld x0 rPts) (View.ld x1 rFts) (View.ld x3 rWp) (View.ld x4 rWf) (View.ld x5 rB)

/-- The clip-space coordinates of every point of the block. -/
def clipc (x0 : Vec F S1x5000x3 .f32) (x1 : Vec F S1x5000x192 .f32) (x2 : Vec F S1x4x4 .f32) (x3 : Vec F S3x14 .f32) (x4 : Vec F S192x14 .f32) (x5 : Vec F S1x14 .f32) : FVec F S5000x4 .f32 :=
  k0_pay10 (k0_pay4 (View.ld x0 rPts)) (heads x0 x1 x3 x4 x5) (View.ld x2 rPrj)

/-- Their fourth column. -/
def clipw (x0 : Vec F S1x5000x3 .f32) (x1 : Vec F S1x5000x192 .f32) (x2 : Vec F S1x4x4 .f32) (x3 : Vec F S3x14 .f32) (x4 : Vec F S192x14 .f32) (x5 : Vec F S1x14 .f32) : FVec F S5000x1 .f32 :=
  k0_pay11 (k0_pay4 (View.ld x0 rPts)) (heads x0 x1 x3 x4 x5) (View.ld x2 rPrj)

/-- The output block after the body, from the six input blocks: its six stores, the last first. -/
def out0_6 (x0 : Vec F S1x5000x3 .f32) (x1 : Vec F S1x5000x192 .f32) (x2 : Vec F S1x4x4 .f32) (x3 : Vec F S3x14 .f32) (x4 : Vec F S192x14 .f32) (x5 : Vec F S1x14 .f32) : Vec F S1x5000x14 .f32 :=
  View.canon [⟨rO2, k0_pay3 (clipc x0 x1 x2 x3 x4 x5) (clipw x0 x1 x2 x3 x4 x5)⟩,
    ⟨rO0, k0_pay2 (clipc x0 x1 x2 x3 x4 x5) (clipw x0 x1 x2 x3 x4 x5)⟩,
    ⟨rO10, k0_pay9 (heads x0 x1 x3 x4 x5)⟩,
    ⟨rO7, k0_pay8 (heads x0 x1 x3 x4 x5)⟩,
    ⟨rO6, k0_pay7 (View.ld x0 rPts) (View.ld x1 rFts) (View.ld x3 rWp) (View.ld x4 rWf) (View.ld x5 rB)⟩,
    ⟨rO3, k0_pay6 (View.ld x0 rPts) (View.ld x1 rFts) (View.ld x3 rWp) (View.ld x4 rWf) (View.ld x5 rB)⟩]

/-- The six column ranges tile the block's 14 columns: cut into single columns they are the 14 columns, each once. -/
theorem cover0_6 (p0 : Vec F S1x5000x1 .f32) (p1 : Vec F S1x5000x2 .f32) (p2 : Vec F S1x5000x4 .f32) (p3 : Vec F S1x5000x3 .f32)
    (p4 : Vec F S1x5000x1 .f32) (p5 : Vec F S1x5000x3 .f32) (y : S1x5000x14.Idx) :
    ∃ pc ∈ ([⟨rO2, p0⟩, ⟨rO0, p1⟩, ⟨rO10, p2⟩, ⟨rO7, p3⟩, ⟨rO6, p4⟩, ⟨rO3, p5⟩] : List (View.Piece (Elt F) S1x5000x14 .f32)), y ∈ pc.1.set :=
  View.cover_of_tiledBy [⟨rO2, p0⟩, ⟨rO0, p1⟩, ⟨rO10, p2⟩, ⟨rO7, p3⟩, ⟨rO6, p4⟩, ⟨rO3, p5⟩] ![1, 5000, 1] (by sl_kernel_rfl) y

end Cert.KernelIdeal.Gen

end
-- ==== Proof.KernelIdealRun.lean ====
/-
  The body's run at one grid point, and the program's run.

  At a point the six input blocks are in their staging buffers and the output's staging buffer holds anything.  The
  body reads the inputs whole, reads and overwrites six column ranges of the output buffer, and returns; afterwards
  the inputs are as they were and the output buffer holds the overlay of the six stored values, because the ranges
  tile the block.  Threading this through the 80 points of the grid, after the host operations, gives the run of the
  whole program with every array named: the arguments unchanged, the result array block by block what the body
  left at the point that wrote that block.
-/
import proofs.«172457_j36189394436976_2_alg».proof.Proof.KernelIdealFrame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole staging buffers, the inputs' at contents `x0 … x5` and the output's at anything, runs to its
    return with the inputs' as they were and the output's at the overlay of its six stores. -/
theorem sound_kernel (c : Dev nD) (E : Set ℕ) (i : grid0.Coords) (arg2 : Memref sig .tc .vmem S1x5000x3 .f32) (harg2 : arg2.IsWhole) (arg3 : Memref sig .tc .vmem S1x5000x192 .f32) (harg3 : arg3.IsWhole) (arg4 : Memref sig .tc .vmem S1x4x4 .f32) (harg4 : arg4.IsWhole) (arg5 : Memref sig .tc .vmem S3x14 .f32) (harg5 : arg5.IsWhole) (arg6 : Memref sig .tc .vmem S192x14 .f32) (harg6 : arg6.IsWhole) (arg7 : Memref sig .tc .vmem S1x14 .f32) (harg7 : arg7.IsWhole) (arg8 : Memref sig .tc .vmem S1x5000x14 .f32) (harg8 : arg8.IsWhole)
    (x0 : Vec F S1x5000x3 .f32) (x1 : Vec F S1x5000x192 .f32) (x2 : Vec F S1x4x4 .f32) (x3 : Vec F S3x14 .f32) (x4 : Vec F S192x14 .f32) (x5 : Vec F S1x14 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5)) -∗ K ⟨⟩))
      ⊢ wp frame (wpE (defs₀ (F := F)) Variants.none c none) E (cc0__decoder_camera_kernel i arg2 harg2 arg3 harg3 arg4 harg4 arg5 harg5 arg6 harg6 arg7 harg7 arg8 harg8) K := by
  simp only [cc0__decoder_camera_kernel_eq_skeleton]; unfold cc0__decoder_camera_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _ _ _ _ _ _)

/-! ## The proof data -/

/-- The arrays as the region finds them; after the body at a point each input's buffer at its block and the output's
    at the overlay of the six stores computed from the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and leaves its fourteen arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Gen

end
-- ==== Proof.DecoderSpec.lean ====
/-
  What the two programs compute for one point, as functions on the extended reals.

  A point has three coordinates `pt`.  The decoder gives it fourteen numbers `y`, laid out as an offset of the
  position (entries 0–2), a quaternion (3–6), three log-scales (7–9), an opacity logit (10) and three colours (11–13).
  A 4 × 4 matrix `P` projects the displaced position.  The fourteen outputs, in the order they are packed:

    0–1   the first two clip coordinates divided by (the fourth + 1e-7)
    2     the third clip coordinate divided by the same
    3–5   min (exp (log-scale − 3.9)) 0.1
    6     the logistic function of the logit
    7–9   the colours clamped to [0, 1]
    10–13 the quaternion divided by (its Euclidean norm + 1e-8)

  where the clip coordinates are  x·P₀ + y·P₁ + z·P₂ + P₃  of the displaced position (x, y, z) = pt + offset.
  The float literals are kept as the binary values both programs spell; only 0 and 1 are ever evaluated.
-/
import Idealize.ShloMosaic.PureOps.Ideal
import Idealize.ShloMosaic.PureOps.Ideal.Laws

noncomputable section

namespace Cert.Decoder

open Idealize.ShloMosaic

/-- The literal 1.0 denotes the real one. -/
theorem ofBits_one : Ideal.ofBits .f32 0x3F800000#32 = 1 := by
  simp [Ideal.ofBits, Ideal.ieee, -EReal.coe_mul]; norm_num

abbrev cBias : EReal := Ideal.ofBits .f32 0x4079999A#32
abbrev cCap : EReal := Ideal.ofBits .f32 0x3DCCCCCD#32
abbrev cZero : EReal := Ideal.ofBits .f32 0x00000000#32
abbrev cOne : EReal := Ideal.ofBits .f32 0x3F800000#32
abbrev cEpsN : EReal := Ideal.ofBits .f32 0x322BCC77#32
abbrev cEpsW : EReal := Ideal.ofBits .f32 0x33D6BF95#32

variable (pt : Fin 3 → EReal) (y : Fin 14 → EReal) (P : Fin 4 → Fin 4 → EReal)

/-- Entries of `y` by head. -/
abbrev yOff (i : Fin 3) : EReal := y ⟨i.val, by omega⟩
abbrev yRot (k : Fin 4) : EReal := y ⟨3 + k.val, by omega⟩
abbrev yScl (j : Fin 3) : EReal := y ⟨7 + j.val, by omega⟩
abbrev yOp : EReal := y ⟨10, by omega⟩
abbrev yShs (j : Fin 3) : EReal := y ⟨11 + j.val, by omega⟩

def scales (j : Fin 3) : EReal := min (Ideal.exp (yScl y j - cBias)) cCap

def opac : EReal := Ideal.logistic (yOp y)

def colors (j : Fin 3) : EReal := min cOne (max cZero (yShs y j))

def rot (j : Fin 4) : EReal := Ideal.div (yRot y j) (Ideal.sqrt (∑ k : Fin 4, yRot y k * yRot y k) + cEpsN)

/-- The displaced position. -/
def xyz (i : Fin 3) : EReal := pt i + yOff y i

/-- The clip coordinates. -/
def clip (j : Fin 4) : EReal := xyz pt y 0 * P 0 j + xyz pt y 1 * P 1 j + xyz pt y 2 * P 2 j + P 3 j

def wcol : EReal := clip pt y P 3 + cEpsW

def ndc (j : Fin 2) : EReal := Ideal.div (clip pt y P ⟨j.val, by omega⟩) (wcol pt y P)

def depth : EReal := Ideal.div (clip pt y P 2) (wcol pt y P)

end Cert.Decoder

end
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.KernelRows.lean ====
/-
  What the kernel's body stores for one point of its block, at the ideal values.

  Row `r` of the block is one point.  Its fourteen decoder outputs are the products of its three coordinates with the
  first weight block, plus the products of its 192 features with the second, plus the bias row.  Each of the six
  stored values, read at row `r`, is the corresponding piece of the per-point specification applied to that row's
  coordinates, its fourteen decoder outputs and the staged 4 × 4 projection.
-/
import proofs.«172457_j36189394436976_2_alg».proof.Proof.Gen.KernelIdeal.Skeleton
import proofs.«172457_j36189394436976_2_alg».proof.Proof.DecoderSpec
import proofs.«172457_j36189394436976_2_alg».proof.Proof.LibKeepdimsCol
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal Cert.KernelIdeal.Gen
open Cert.LibKeepdimsCol

/-! ## The two matrix products -/

theorem lhsP_0 (i : S5000x14.Idx) (q : dot_S5000x3_S3x14_S5000x14_1_0_0_1_n_n.contr.Idx) : (dot_S5000x3_S3x14_S5000x14_1_0_0_1_n_n.lhsIdx i q 0).val = (i 0).val := by
  unfold DotDims.lhsIdx
  rw [dif_neg (show ¬(0 : Fin S5000x3.rank) ∈ dot_S5000x3_S3x14_S5000x14_1_0_0_1_n_n.lhsBatch by decide), dif_pos (show (0 : Fin S5000x3.rank) ∈ dot_S5000x3_S3x14_S5000x14_1_0_0_1_n_n.lhsNonContracting by decide)]
  rfl
theorem lhsP_1 (i : S5000x14.Idx) (q : dot_S5000x3_S3x14_S5000x14_1_0_0_1_n_n.contr.Idx) : (dot_S5000x3_S3x14_S5000x14_1_0_0_1_n_n.lhsIdx i q 1).val = (q ⟨0, by decide⟩).val :=
  dot_S5000x3_S3x14_S5000x14_1_0_0_1_n_n.lhsIdx_val_of_single rfl i q
theorem rhsP_0 (i : S5000x14.Idx) (q : dot_S5000x3_S3x14_S5000x14_1_0_0_1_n_n.contr.Idx) : (dot_S5000x3_S3x14_S5000x14_1_0_0_1_n_n.rhsIdx i q 0).val = (q ⟨0, by decide⟩).val :=
  dot_S5000x3_S3x14_S5000x14_1_0_0_1_n_n.rhsIdx_val_of_single rfl i q
theorem rhsP_1 (i : S5000x14.Idx) (q : dot_S5000x3_S3x14_S5000x14_1_0_0_1_n_n.contr.Idx) : (dot_S5000x3_S3x14_S5000x14_1_0_0_1_n_n.rhsIdx i q 1).val = (i 1).val := by
  unfold DotDims.rhsIdx
  rw [dif_neg (show ¬(1 : Fin S3x14.rank) ∈ dot_S5000x3_S3x14_S5000x14_1_0_0_1_n_n.rhsBatch by decide), dif_pos (show (1 : Fin S3x14.rank) ∈ dot_S5000x3_S3x14_S5000x14_1_0_0_1_n_n.rhsNonContracting by decide)]
  rfl
/-- The product into a zero accumulator, read at `(r, o)`: the sum over the 3 contracted positions. -/
theorem matmulP_apply (l : FVec Ideal S5000x3 .bf16) (w : FVec Ideal S3x14 .bf16) (r : Fin 5000) (o : Fin 14) :
    matmul (F := Ideal) dot_S5000x3_S3x14_S5000x14_1_0_0_1_n_n none l w (constant (F := Ideal) S5000x14 .f32 0x00000000#32) (ix2 r o)
      = ∑ k : Fin 3, l (ix2 r k) * w (ix2 k o) := by
  refine (Ideal.matmul_constant_zero_apply dot_S5000x3_S3x14_S5000x14_1_0_0_1_n_n none l w (ix2 r o)).trans ?_
  rw [← Equiv.sum_comp (ValueIdx.contrEquiv1 dot_S5000x3_S3x14_S5000x14_1_0_0_1_n_n 3 rfl rfl).symm]
  refine Finset.sum_congr rfl fun k _ => ?_
  have hk := ValueIdx.contrEquiv1_symm_val dot_S5000x3_S3x14_S5000x14_1_0_0_1_n_n 3 rfl rfl k
  have el : dot_S5000x3_S3x14_S5000x14_1_0_0_1_n_n.lhsIdx (ix2 r o) ((ValueIdx.contrEquiv1 dot_S5000x3_S3x14_S5000x14_1_0_0_1_n_n 3 rfl rfl).symm k) = ix2 r k := funext fun a => Fin.ext (by
    match a with
    | ⟨0, _⟩ => exact lhsP_0 _ _
    | ⟨1, _⟩ => exact (lhsP_1 _ _).trans hk)
  have er : dot_S5000x3_S3x14_S5000x14_1_0_0_1_n_n.rhsIdx (ix2 r o) ((ValueIdx.contrEquiv1 dot_S5000x3_S3x14_S5000x14_1_0_0_1_n_n 3 rfl rfl).symm k) = ix2 k o := funext fun a => Fin.ext (by
    match a with
    | ⟨0, _⟩ => exact (rhsP_0 _ _).trans hk
    | ⟨1, _⟩ => exact rhsP_1 _ _)
  rw [el, er]

theorem lhsF_0 (i : S5000x14.Idx) (q : dot_S5000x192_S192x14_S5000x14_1_0_0_1_n_n.contr.Idx) : (dot_S5000x192_S192x14_S5000x14_1_0_0_1_n_n.lhsIdx i q 0).val = (i 0).val := by
  unfold DotDims.lhsIdx
  rw [dif_neg (show ¬(0 : Fin S5000x192.rank) ∈ dot_S5000x192_S192x14_S5000x14_1_0_0_1_n_n.lhsBatch by decide), dif_pos (show (0 : Fin S5000x192.rank) ∈ dot_S5000x192_S192x14_S5000x14_1_0_0_1_n_n.lhsNonContracting by decide)]
  rfl
theorem lhsF_1 (i : S5000x14.Idx) (q : dot_S5000x192_S192x14_S5000x14_1_0_0_1_n_n.contr.Idx) : (dot_S5000x192_S192x14_S5000x14_1_0_0_1_n_n.lhsIdx i q 1).val = (q ⟨0, by decide⟩).val :=
  dot_S5000x192_S192x14_S5000x14_1_0_0_1_n_n.lhsIdx_val_of_single rfl i q
theorem rhsF_0 (i : S5000x14.Idx) (q : dot_S5000x192_S192x14_S5000x14_1_0_0_1_n_n.contr.Idx) : (dot_S5000x192_S192x14_S5000x14_1_0_0_1_n_n.rhsIdx i q 0).val = (q ⟨0, by decide⟩).val :=
  dot_S5000x192_S192x14_S5000x14_1_0_0_1_n_n.rhsIdx_val_of_single rfl i q
theorem rhsF_1 (i : S5000x14.Idx) (q : dot_S5000x192_S192x14_S5000x14_1_0_0_1_n_n.contr.Idx) : (dot_S5000x192_S192x14_S5000x14_1_0_0_1_n_n.rhsIdx i q 1).val = (i 1).val := by
  unfold DotDims.rhsIdx
  rw [dif_neg (show ¬(1 : Fin S192x14.rank) ∈ dot_S5000x192_S192x14_S5000x14_1_0_0_1_n_n.rhsBatch by decide), dif_pos (show (1 : Fin S192x14.rank) ∈ dot_S5000x192_S192x14_S5000x14_1_0_0_1_n_n.rhsNonContracting by decide)]
  rfl
/-- The product into a zero accumulator, read at `(r, o)`: the sum over the 192 contracted positions. -/
theorem matmulF_apply (l : FVec Ideal S5000x192 .bf16) (w : FVec Ideal S192x14 .bf16) (r : Fin 5000) (o : Fin 14) :
    matmul (F := Ideal) dot_S5000x192_S192x14_S5000x14_1_0_0_1_n_n none l w (constant (F := Ideal) S5000x14 .f32 0x00000000#32) (ix2 r o)
      = ∑ k : Fin 192, l (ix2 r k) * w (ix2 k o) := by
  refine (Ideal.matmul_constant_zero_apply dot_S5000x192_S192x14_S5000x14_1_0_0_1_n_n none l w (ix2 r o)).trans ?_
  rw [← Equiv.sum_comp (ValueIdx.contrEquiv1 dot_S5000x192_S192x14_S5000x14_1_0_0_1_n_n 192 rfl rfl).symm]
  refine Finset.sum_congr rfl fun k _ => ?_
  have hk := ValueIdx.contrEquiv1_symm_val dot_S5000x192_S192x14_S5000x14_1_0_0_1_n_n 192 rfl rfl k
  have el : dot_S5000x192_S192x14_S5000x14_1_0_0_1_n_n.lhsIdx (ix2 r o) ((ValueIdx.contrEquiv1 dot_S5000x192_S192x14_S5000x14_1_0_0_1_n_n 192 rfl rfl).symm k) = ix2 r k := funext fun a => Fin.ext (by
    match a with
    | ⟨0, _⟩ => exact lhsF_0 _ _
    | ⟨1, _⟩ => exact (lhsF_1 _ _).trans hk)
  have er : dot_S5000x192_S192x14_S5000x14_1_0_0_1_n_n.rhsIdx (ix2 r o) ((ValueIdx.contrEquiv1 dot_S5000x192_S192x14_S5000x14_1_0_0_1_n_n 192 rfl rfl).symm k) = ix2 k o := funext fun a => Fin.ext (by
    match a with
    | ⟨0, _⟩ => exact (rhsF_0 _ _).trans hk
    | ⟨1, _⟩ => exact rhsF_1 _ _)
  rw [el, er]

/-! ## The decoder outputs of a row -/

/-- The row's coordinates as the body uses them. -/
theorem pay4_apply (v0 : Vec Ideal S1x5000x3 .f32) (r : Fin 5000) (i : Fin 3) :
    k0_pay4 (F := Ideal) v0 (ix2 r i) = v0 (ix3 (0 : Fin 1) r i) := by
  unfold k0_pay4
  exact ValueIdx.shapeCast_1ab_ab_apply v0 shapeCasts_S1x5000x3_S5000x3 r i

/-- The fourteen decoder outputs of row `r`: coordinates times the first weight block, features times the second,
    plus the bias. -/
theorem pay5_apply (v0 : Vec Ideal S1x5000x3 .f32) (v2 : Vec Ideal S1x5000x192 .f32) (v6 : Vec Ideal S3x14 .f32)
    (v9 : Vec Ideal S192x14 .f32) (v15 : Vec Ideal S1x14 .f32) (r : Fin 5000) (o : Fin 14) :
    k0_pay5 (F := Ideal) v0 v2 v6 v9 v15 (ix2 r o)
      = (∑ k : Fin 3, v0 (ix3 (0 : Fin 1) r k) * v6 (ix2 k o)) + (∑ k : Fin 192, v2 (ix3 (0 : Fin 1) r k) * v9 (ix2 k o))
        + v15 (ix2 (0 : Fin 1) o) := by
  unfold k0_pay5
  refine congrArg₂ (· + ·) (congrArg₂ (· + ·) ?_ ?_) ?_
  · refine (matmulP_apply _ _ r o).trans (Finset.sum_congr rfl fun k _ => congrArg₂ (· * ·) ?_ ?_)
    · exact pay4_apply v0 r k
    · exact congrFun (shapeCast_self v6 shapeCasts_S3x14_S3x14) (ix2 k o)
  · refine (matmulF_apply _ _ r o).trans (Finset.sum_congr rfl fun k _ => congrArg₂ (· * ·) ?_ ?_)
    · exact ValueIdx.shapeCast_1ab_ab_apply v2 shapeCasts_S1x5000x192_S5000x192 r k
    · exact congrFun (shapeCast_self v9 shapeCasts_S192x14_S192x14) (ix2 k o)
  · refine (ValueIdx.broadcastTo_1b_ab_apply _ broadcasts_S1x14_S5000x14 r o).trans ?_
    refine (congrFun (shapeCast_self _ shapeCasts_S1x14_S1x14) _).trans ?_
    exact congrFun (shapeCast_self v15 shapeCasts_S1x14_S1x14) _

/-! ## The six stored values at a row -/

/-- The clamped colours. -/
theorem pay8_apply (v19 : FVec Ideal S5000x14 .f32) (r : Fin 5000) (j : Fin 3) :
    k0_pay8 (F := Ideal) v19 (ix3 (0 : Fin 1) r j) = Decoder.colors (fun o => v19 (ix2 r o)) j := by
  unfold k0_pay8
  refine (ValueIdx.shapeCast_ab_1ab_apply _ shapeCasts_S5000x3_S1x5000x3 0 r j).trans ?_
  exact congrArg (fun z => min Decoder.cOne (max Decoder.cZero z))
    (ValueIdx.slice2_axis1_eq 11 v19 slices_S5000x14_o0_11_S5000x3 r j)

/-- The capped scales. -/
theorem pay6_apply (v0 : Vec Ideal S1x5000x3 .f32) (v2 : Vec Ideal S1x5000x192 .f32) (v6 : Vec Ideal S3x14 .f32)
    (v9 : Vec Ideal S192x14 .f32) (v15 : Vec Ideal S1x14 .f32) (r : Fin 5000) (j : Fin 3) :
    k0_pay6 (F := Ideal) v0 v2 v6 v9 v15 (ix3 (0 : Fin 1) r j)
      = Decoder.scales (fun o => k0_pay5 (F := Ideal) v0 v2 v6 v9 v15 (ix2 r o)) j := by
  unfold k0_pay6
  refine (ValueIdx.shapeCast_ab_1ab_apply _ shapeCasts_S5000x3_S1x5000x3 0 r j).trans ?_
  exact congrArg (fun z => min (Ideal.exp (z - Decoder.cBias)) Decoder.cCap)
    (ValueIdx.slice2_axis1_eq 7 (k0_pay5 (F := Ideal) v0 v2 v6 v9 v15) slices_S5000x14_o0_7_S5000x3 r j)

/-- The opacity. -/
theorem pay7_apply (v0 : Vec Ideal S1x5000x3 .f32) (v2 : Vec Ideal S1x5000x192 .f32) (v6 : Vec Ideal S3x14 .f32)
    (v9 : Vec Ideal S192x14 .f32) (v15 : Vec Ideal S1x14 .f32) (r : Fin 5000) (j : Fin 1) :
    k0_pay7 (F := Ideal) v0 v2 v6 v9 v15 (ix3 (0 : Fin 1) r j)
      = Decoder.opac (fun o => k0_pay5 (F := Ideal) v0 v2 v6 v9 v15 (ix2 r o)) := by
  unfold k0_pay7
  refine (ValueIdx.shapeCast_ab_1ab_apply _ shapeCasts_S5000x1_S1x5000x1 0 r j).trans ?_
  have hj : j = 0 := Subsingleton.elim _ _
  subst hj
  exact congrArg Ideal.logistic
    (ValueIdx.slice2_axis1_eq 10 (k0_pay5 (F := Ideal) v0 v2 v6 v9 v15) slices_S5000x14_o0_10_S5000x1 r 0)

/-- The normalized quaternion. -/
theorem pay9_apply (v19 : FVec Ideal S5000x14 .f32) (r : Fin 5000) (j : Fin 4) :
    k0_pay9 (F := Ideal) v19 (ix3 (0 : Fin 1) r j) = Decoder.rot (fun o => v19 (ix2 r o)) j := by
  unfold k0_pay9
  refine (ValueIdx.shapeCast_ab_1ab_apply _ shapeCasts_S5000x4_S1x5000x4 0 r j).trans ?_
  have e42 : ∀ k : Fin 4, extractStridedSlice S5000x4 ![0, 3] v19 slices_S5000x14_o0_3_S5000x4 (ix2 r k)
      = Decoder.yRot (fun o => v19 (ix2 r o)) k := fun k =>
    ValueIdx.slice2_axis1_eq 3 v19 slices_S5000x14_o0_3_S5000x4 r k
  refine congrArg₂ Ideal.div (e42 j) ?_
  refine (broadcastTo_a1_ab_apply _ broadcasts_S5000x1_S5000x4 r j).trans ?_
  refine congrArg (fun z => Ideal.sqrt z + Decoder.cEpsN) ?_
  refine (shapeCast_a_a1_apply _ shapeCasts_S5000_S5000x1 r 0).trans ?_
  refine (Ideal.multiReduction_add_single _ 0x00000000#32 reduces_S5000x4_S5000 (.inl rfl) rfl (ix1 r)).trans ?_
  refine Finset.sum_congr rfl fun k _ => ?_
  have hl : reduces_S5000x4_S5000.lift (ix1 r) k = ix2 r k := by
    funext d
    match d with
    | ⟨0, _⟩ => rfl
    | ⟨1, _⟩ => rfl
  rw [hl]
  exact congrArg₂ (· * ·) (e42 k) (e42 k)

/-- The clip coordinates of a row. -/
theorem pay10_apply (v1 : FVec Ideal S5000x3 .f32) (v19 : FVec Ideal S5000x14 .f32) (v56 : Vec Ideal S1x4x4 .f32)
    (r : Fin 5000) (j : Fin 4) :
    k0_pay10 (F := Ideal) v1 v19 v56 (ix2 r j)
      = Decoder.clip (fun i => v1 (ix2 r i)) (fun o => v19 (ix2 r o)) (fun a b => v56 (ix3 (0 : Fin 1) a b)) j := by
  unfold k0_pay10
  have ex : ∀ (i : Fin 3) (h : S5000x3.Slices ![0, i.val] S5000x1),
      broadcastTo S5000x4 (extractStridedSlice S5000x1 ![0, i.val]
        (addf v1 (extractStridedSlice S5000x3 ![0, 0] v19 slices_S5000x14_o0_0_S5000x3)) h) broadcasts_S5000x1_S5000x4 (ix2 r j)
        = Decoder.xyz (fun i => v1 (ix2 r i)) (fun o => v19 (ix2 r o)) i := fun i h => by
    refine (broadcastTo_a1_ab_apply _ broadcasts_S5000x1_S5000x4 r j).trans ?_
    refine (ValueIdx.slice2_axis1_eq i.val _ h r 0).trans ?_
    have hi : (⟨i.val + (0 : Fin 1).val, Nat.lt_of_lt_of_le (Nat.add_lt_add_left (0 : Fin 1).isLt i.val) (h.2 1)⟩ : Fin 3) = i := Fin.ext (Nat.add_zero _)
    rw [hi]
    refine congrArg (v1 (ix2 r i) + ·) ?_
    refine (ValueIdx.slice2_axis1_eq 0 v19 slices_S5000x14_o0_0_S5000x3 r i).trans ?_
    exact congrArg (fun z => v19 (ix2 r z)) (Fin.ext (Nat.zero_add _))
  have ep : ∀ (a : Fin 4) (h : S4x4.Slices ![a.val, 0] S1x4),
      broadcastTo S5000x4 (extractStridedSlice S1x4 ![a.val, 0] (shapeCast S4x4 v56 shapeCasts_S1x4x4_S4x4) h) broadcasts_S1x4_S5000x4 (ix2 r j)
        = v56 (ix3 (0 : Fin 1) a j) := fun a h => by
    refine (ValueIdx.broadcastTo_1b_ab_apply _ broadcasts_S1x4_S5000x4 r j).trans ?_
    refine (ValueIdx.slice2_axis0_eq a.val _ h 0 j).trans ?_
    have ha : (⟨a.val + (0 : Fin 1).val, Nat.lt_of_lt_of_le (Nat.add_lt_add_left (0 : Fin 1).isLt a.val) (h.2 0)⟩ : Fin 4) = a := Fin.ext (Nat.add_zero _)
    rw [ha]
    exact ValueIdx.shapeCast_1ab_ab_apply v56 shapeCasts_S1x4x4_S4x4 a j
  refine congrArg₂ (· + ·) (congrArg₂ (· + ·) (congrArg₂ (· + ·) (congrArg₂ (· * ·) ?_ ?_) (congrArg₂ (· * ·) ?_ ?_)) (congrArg₂ (· * ·) ?_ ?_)) ?_
  · exact ex 0 slices_S5000x3_o0_0_S5000x1
  · exact ep 0 slices_S4x4_o0_0_S1x4
  · exact ex 1 slices_S5000x3_o0_1_S5000x1
  · exact ep 1 slices_S4x4_o1_0_S1x4
  · exact ex 2 slices_S5000x3_o0_2_S5000x1
  · exact ep 2 slices_S4x4_o2_0_S1x4
  · exact ep 3 slices_S4x4_o3_0_S1x4

/-- The fourth clip coordinate, kept as a column. -/
theorem pay11_apply (v1 : FVec Ideal S5000x3 .f32) (v19 : FVec Ideal S5000x14 .f32) (v56 : Vec Ideal S1x4x4 .f32)
    (r : Fin 5000) (u : Fin 1) :
    k0_pay11 (F := Ideal) v1 v19 v56 (ix2 r u)
      = Decoder.clip (fun i => v1 (ix2 r i)) (fun o => v19 (ix2 r o)) (fun a b => v56 (ix3 (0 : Fin 1) a b)) 3 := by
  unfold k0_pay11
  have hu : u = 0 := Subsingleton.elim _ _
  subst hu
  refine (ValueIdx.slice2_axis1_eq 3 _ slices_S5000x4_o0_3_S5000x1 r 0).trans ?_
  exact pay10_apply v1 v19 v56 r _

/-- The first two clip coordinates over the shifted fourth. -/
theorem pay2_apply (v77 : FVec Ideal S5000x4 .f32) (v78 : FVec Ideal S5000x1 .f32) (r : Fin 5000) (j : Fin 2) :
    k0_pay2 (F := Ideal) v77 v78 (ix3 (0 : Fin 1) r j)
      = Ideal.div (v77 (ix2 r ⟨j.val, by omega⟩)) (v78 (ix2 r (0 : Fin 1)) + Decoder.cEpsW) := by
  unfold k0_pay2
  refine (ValueIdx.shapeCast_ab_1ab_apply _ shapeCasts_S5000x2_S1x5000x2 0 r j).trans ?_
  refine congrArg₂ Ideal.div ?_ ?_
  · refine (ValueIdx.slice2_axis1_eq 0 v77 slices_S5000x4_o0_0_S5000x2 r j).trans ?_
    exact congrArg (fun z => v77 (ix2 r z)) (Fin.ext (Nat.zero_add _))
  · exact broadcastTo_a1_ab_apply _ broadcasts_S5000x1_S5000x2 r j

/-- The third clip coordinate over the shifted fourth. -/
theorem pay3_apply (v77 : FVec Ideal S5000x4 .f32) (v78 : FVec Ideal S5000x1 .f32) (r : Fin 5000) (u : Fin 1) :
    k0_pay3 (F := Ideal) v77 v78 (ix3 (0 : Fin 1) r u)
      = Ideal.div (v77 (ix2 r (2 : Fin 4))) (v78 (ix2 r (0 : Fin 1)) + Decoder.cEpsW) := by
  unfold k0_pay3
  have hu : u = 0 := Subsingleton.elim _ _
  subst hu
  refine (ValueIdx.shapeCast_ab_1ab_apply _ shapeCasts_S5000x1_S1x5000x1 0 r 0).trans ?_
  refine congrArg₂ Ideal.div ?_ rfl
  exact ValueIdx.slice2_axis1_eq 2 v77 slices_S5000x4_o0_2_S5000x1 r 0

end Cert.KernelIdeal.Rows

end
-- ==== Proof.LibNary5.lean ====
/-
  A host operation with five operands, read back.

  A line of host operations leaves in each buffer the value of the operation that wrote it, applied to what its
  operands held.  For an operation whose operands are given as a family, the general statement keeps the family under a
  binder, where no further rewriting reaches the operands.  For a LITERAL family of five references the value is the
  operation's function applied to the five operands' contents, each at its own reference, so that the operands can
  be rewritten in turn (a concatenation of five arrays is such an operation).
-/
import Idealize.ShloMosaic.Lib.StableHlo.Run

noncomputable section

namespace Idealize.ShloMosaic.StableHlo

variable {τ : Topo} {sig : RefSig} {Val : EltTy → Type}
variable {x a b c e y : Ref sig .tc}

/-- The result of an operation on the literal family `![x, a, b, c, e]`, at its own result buffer: its function of the
    five operands' contents. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- What one buffer holds after a line of host operations, computed: each operation's result at its own result buffer
    is its function's value, at any other buffer what was there; a five-operand family is opened at its literals. -/
macro "after_results5" : tactic =>
  `(tactic| (simp only [after_cons, after_nil]
             repeat (first
               | rw [nullary_result] | rw [unary_result] | rw [binary_result] | rw [ternary_result]
               | rw [reshape_result] | rw [nary5_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-- The same, with the result reference left out of the index that `simp` keys its rewrite rules on, so that it fires
    from a `simp only` pass. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- The same computation as ONE simplification pass, each shared intermediate result visited once: for a long line of
    host operations. -/
macro "after_results_simp5" : tactic =>
  `(tactic| (simp (disch := decide) only [after_cons, after_nil,
      nullary_result', unary_result', binary_result', ternary_result', reshape_result', nary5_result',
      nullary_result_ne', unary_result_ne', binary_result_ne', ternary_result_ne', reshape_result_ne', nary_result_ne']))

end Idealize.ShloMosaic.StableHlo

end
-- ==== Proof.KernelHost.lean ====
/-
  What the host operations before the region leave in the four arrays the kernel stages besides its two arguments.

  The first weight block is rows 0–2 and the second rows 3–194 of the five heads' weights joined side by side (14
  columns); the bias row is the five biases joined end to end; and the sixteen projection matrices are computed from
  the intrinsics and the extrinsics by the very operations, in the very order, by which the reference computes its
  own, so the two are one array.
-/
import proofs.«172457_j36189394436976_2_alg».proof.Proof.KernelIdealFrame
import proofs.«172457_j36189394436976_2_alg».proof.Proof.LibNary5
import proofs.«172457_j36189394436976_2_alg».proof.Proof.Gen.ReferenceIdeal.Read

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The five heads' weights side by side. -/
def Wall (c : Dev nD) : S195x14.Idx → EReal :=
  concatenate S195x14 1 [⟨S195x3, m ((c : Thread nD τ).loc main_arg2)⟩, ⟨S195x4, m ((c : Thread nD τ).loc main_arg4)⟩,
    ⟨S195x3, m ((c : Thread nD τ).loc main_arg6)⟩, ⟨S195x1, m ((c : Thread nD τ).loc main_arg8)⟩,
    ⟨S195x3, m ((c : Thread nD τ).loc main_arg10)⟩] concatenates_S195x3_S195x4_S195x3_S195x1_S195x3_S195x14_d1

/-- The five biases end to end. -/
def Ball (c : Dev nD) : S14.Idx → EReal :=
  concatenate S14 0 [⟨S3, m ((c : Thread nD τ).loc main_arg3)⟩, ⟨S4, m ((c : Thread nD τ).loc main_arg5)⟩,
    ⟨S3, m ((c : Thread nD τ).loc main_arg7)⟩, ⟨S1, m ((c : Thread nD τ).loc main_arg9)⟩,
    ⟨S3, m ((c : Thread nD τ).loc main_arg11)⟩] concatenates_S3_S4_S3_S1_S3_S14_d0

set_option maxHeartbeats 4000000 in
theorem V_v3 (c : Dev nD) : (V m c main_v3 : S3x14.Idx → EReal)
    = extractStridedSlice S3x14 ![0, 0] (Wall m c) slices_S195x14_S3x14_0_0 := by
  dsimp only [V, hostOps0]; after_results_simp5; rfl

set_option maxHeartbeats 4000000 in
theorem V_v4 (c : Dev nD) : (V m c main_v4 : S192x14.Idx → EReal)
    = extractStridedSlice S192x14 ![3, 0] (Wall m c) slices_S195x14_S192x14_3_0 := by
  dsimp only [V, hostOps0]; after_results_simp5; rfl

set_option maxHeartbeats 4000000 in
theorem V_v2 (c : Dev nD) : (V m c main_v2 : S1x14.Idx → EReal)
    = broadcastInDim S1x14 ![1] bcast_S14_S1x14_1 (Ball m c) := by
  dsimp only [V, hostOps0]; after_results_simp5; rfl

set_option maxHeartbeats 8000000 in
theorem V_v66 (c : Dev nD) : (V m c main_v66 : S16x4x4.Idx → EReal)
    = Cert.ReferenceIdeal.Read.val_main_v100 (F := Ideal) (m ((c : Thread nD τ).loc main_arg12)) (m ((c : Thread nD τ).loc main_arg13)) := by
  dsimp only [V, hostOps0]; after_results_simp5; rfl

end Cert.KernelIdeal.Host

end
-- ==== Proof.ReferenceRows.lean ====
/-
  What the reference computes for one point, at the ideal values.

  For the point `n` of frame `p` the reference joins the point's three coordinates and its 192 features into one
  row of 195 inputs and contracts it against each head's weights; a sum over the joined row is the sum over the
  coordinates plus the sum over the features.  Each of the six packed pieces, read at that point, is the corresponding
  piece of the per-point specification, for any fourteen numbers that agree with the five heads' values, the
  reference's own projection matrix, and the point's coordinates.
-/
import proofs.«172457_j36189394436976_2_alg».proof.Proof.Gen.ReferenceIdeal.Read
import proofs.«172457_j36189394436976_2_alg».proof.Proof.DecoderSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Rows

open Idealize.ShloMosaic Idealize.ShloMosaic.ValueIdx Cert.ReferenceIdeal Cert.ReferenceIdeal.Gen Cert.ReferenceIdeal.Read

variable (x0 : (⟨S16x25000x3, .f32⟩ : BufTy).Contents (Elt Ideal)) (x1 : (⟨S16x25000x192, .f32⟩ : BufTy).Contents (Elt Ideal))
  (x2 : (⟨S195x3, .f32⟩ : BufTy).Contents (Elt Ideal)) (x3 : (⟨S3, .f32⟩ : BufTy).Contents (Elt Ideal)) (x4 : (⟨S195x4, .f32⟩ : BufTy).Contents (Elt Ideal)) (x5 : (⟨S4, .f32⟩ : BufTy).Contents (Elt Ideal))
  (x6 : (⟨S195x3, .f32⟩ : BufTy).Contents (Elt Ideal)) (x7 : (⟨S3, .f32⟩ : BufTy).Contents (Elt Ideal)) (x8 : (⟨S195x1, .f32⟩ : BufTy).Contents (Elt Ideal)) (x9 : (⟨S1, .f32⟩ : BufTy).Contents (Elt Ideal))
  (x10 : (⟨S195x3, .f32⟩ : BufTy).Contents (Elt Ideal)) (x11 : (⟨S3, .f32⟩ : BufTy).Contents (Elt Ideal)) (x12 : (⟨S16x3x3, .f32⟩ : BufTy).Contents (Elt Ideal)) (x13 : (⟨S16x4x4, .f32⟩ : BufTy).Contents (Elt Ideal))
  (p : Fin 16) (n : Fin 25000)

/-! ## The joined row -/

theorem joined_left (k : Fin 3) : val_main_v0 (F := Ideal) x0 x1 (ix3 p n ⟨k.val, by omega⟩) = x0 (ix3 p n k) := by
  unfold val_main_v0
  exact concatenate_pair_apply_left 2 x0 x1 concatenates_S16x25000x3_S16x25000x192_S16x25000x195_d2 _ rfl (ix3 p n k)
    (fun b => match b with | ⟨0, _⟩ => rfl | ⟨1, _⟩ => rfl | ⟨2, _⟩ => rfl)

theorem joined_right (k : Fin 192) : val_main_v0 (F := Ideal) x0 x1 (ix3 p n ⟨3 + k.val, by omega⟩) = x1 (ix3 p n k) := by
  unfold val_main_v0
  exact concatenate_pair_apply_right 2 x0 x1 concatenates_S16x25000x3_S16x25000x192_S16x25000x195_d2 _ rfl rfl (ix3 p n k)
    (fun b hb => match b, hb with | ⟨0, _⟩, _ => rfl | ⟨1, _⟩, _ => rfl | ⟨2, _⟩, hb => absurd rfl hb)
    (by show k.val + 3 = 3 + k.val; omega)

/-- A sum over the 195 joined positions is the sum over the first three plus the sum over the other 192. -/
theorem sum_195 (f : Fin 195 → EReal) :
    ∑ k : Fin 195, f k = (∑ k : Fin 3, f ⟨k.val, by omega⟩) + ∑ k : Fin 192, f ⟨3 + k.val, by omega⟩ :=
  Fin.sum_univ_add (a := 3) (b := 192) (f : Fin (3 + 192) → EReal)

/-- The contraction of the joined row against any weights: coordinates and features contracted separately. -/
theorem joined_sum (w : Fin 195 → EReal) :
    ∑ k : Fin 195, val_main_v0 (F := Ideal) x0 x1 (ix3 p n k) * w k
      = (∑ k : Fin 3, x0 (ix3 p n k) * w ⟨k.val, by omega⟩) + ∑ k : Fin 192, x1 (ix3 p n k) * w ⟨3 + k.val, by omega⟩ := by
  rw [sum_195]
  refine congrArg₂ (· + ·) (Finset.sum_congr rfl fun k _ => ?_) (Finset.sum_congr rfl fun k _ => ?_)
  · rw [joined_left]
  · rw [joined_right]

/-! ## The five heads -/

/-- The head's value at a point: the contraction over the 195 joined inputs, plus its bias. -/
theorem head4 (j : Fin 3) :
    val_main_v4 (F := Ideal) x0 x1 x2 x3 (ix3 p n j)
      = (∑ k : Fin 3, x0 (ix3 p n k) * x2 (ix2 ⟨k.val, by omega⟩ j))
        + (∑ k : Fin 192, x1 (ix3 p n k) * x2 (ix2 ⟨3 + k.val, by omega⟩ j)) + x3 (ix1 j) := by
  show val_main_v1 (F := Ideal) x0 x1 x2 (ix3 p n j) + val_main_v3 (F := Ideal) x3 (ix3 p n j) = _
  refine congrArg₂ (· + ·) ?_ ?_
  · refine (val_main_v1_apply x0 x1 x2 (ix3 p n j)).trans ?_
    have el : ∀ k : Fin 195, lidx_main_v1 (ix3 p n j) k = ix3 p n k := fun k =>
      funext fun a => match a with | ⟨0, _⟩ => rfl | ⟨1, _⟩ => rfl | ⟨2, _⟩ => rfl
    have er : ∀ k : Fin 195, ridx_main_v1 (ix3 p n j) k = ix2 k j := fun k =>
      funext fun a => match a with | ⟨0, _⟩ => rfl | ⟨1, _⟩ => rfl
    simp only [el, er]
    exact joined_sum x0 x1 p n (fun k => x2 (ix2 k j))
  · refine (val_main_v3_apply x3 (ix3 p n j)).trans ((val_main_v2_apply x3 _).trans (congrArg x3 ?_))
    exact funext fun a => match a with
      | ⟨0, _⟩ => by first | rfl | (apply Fin.ext; show (0 : ℕ) = j.val; omega)

/-- The head's value at a point: the contraction over the 195 joined inputs, plus its bias. -/
theorem head8 (j : Fin 4) :
    val_main_v8 (F := Ideal) x0 x1 x4 x5 (ix3 p n j)
      = (∑ k : Fin 3, x0 (ix3 p n k) * x4 (ix2 ⟨k.val, by omega⟩ j))
        + (∑ k : Fin 192, x1 (ix3 p n k) * x4 (ix2 ⟨3 + k.val, by omega⟩ j)) + x5 (ix1 j) := by
  show val_main_v5 (F := Ideal) x0 x1 x4 (ix3 p n j) + val_main_v7 (F := Ideal) x5 (ix3 p n j) = _
  refine congrArg₂ (· + ·) ?_ ?_
  · refine (val_main_v5_apply x0 x1 x4 (ix3 p n j)).trans ?_
    have el : ∀ k : Fin 195, lidx_main_v5 (ix3 p n j) k = ix3 p n k := fun k =>
      funext fun a => match a with | ⟨0, _⟩ => rfl | ⟨1, _⟩ => rfl | ⟨2, _⟩ => rfl
    have er : ∀ k : Fin 195, ridx_main_v5 (ix3 p n j) k = ix2 k j := fun k =>
      funext fun a => match a with | ⟨0, _⟩ => rfl | ⟨1, _⟩ => rfl
    simp only [el, er]
    exact joined_sum x0 x1 p n (fun k => x4 (ix2 k j))
  · refine (val_main_v7_apply x5 (ix3 p n j)).trans ((val_main_v6_apply x5 _).trans (congrArg x5 ?_))
    exact funext fun a => match a with
      | ⟨0, _⟩ => by first | rfl | (apply Fin.ext; show (0 : ℕ) = j.val; omega)

/-- The head's value at a point: the contraction over the 195 joined inputs, plus its bias. -/
theorem head12 (j : Fin 3) :
    val_main_v12 (F := Ideal) x0 x1 x6 x7 (ix3 p n j)
      = (∑ k : Fin 3, x0 (ix3 p n k) * x6 (ix2 ⟨k.val, by omega⟩ j))
        + (∑ k : Fin 192, x1 (ix3 p n k) * x6 (ix2 ⟨3 + k.val, by omega⟩ j)) + x7 (ix1 j) := by
  show val_main_v9 (F := Ideal) x0 x1 x6 (ix3 p n j) + val_main_v11 (F := Ideal) x7 (ix3 p n j) = _
  refine congrArg₂ (· + ·) ?_ ?_
  · refine (val_main_v9_apply x0 x1 x6 (ix3 p n j)).trans ?_
    have el : ∀ k : Fin 195, lidx_main_v9 (ix3 p n j) k = ix3 p n k := fun k =>
      funext fun a => match a with | ⟨0, _⟩ => rfl | ⟨1, _⟩ => rfl | ⟨2, _⟩ => rfl
    have er : ∀ k : Fin 195, ridx_main_v9 (ix3 p n j) k = ix2 k j := fun k =>
      funext fun a => match a with | ⟨0, _⟩ => rfl | ⟨1, _⟩ => rfl
    simp only [el, er]
    exact joined_sum x0 x1 p n (fun k => x6 (ix2 k j))
  · refine (val_main_v11_apply x7 (ix3 p n j)).trans ((val_main_v10_apply x7 _).trans (congrArg x7 ?_))
    exact funext fun a => match a with
      | ⟨0, _⟩ => by first | rfl | (apply Fin.ext; show (0 : ℕ) = j.val; omega)

/-- The head's value at a point: the contraction over the 195 joined inputs, plus its bias. -/
theorem head16 (j : Fin 1) :
    val_main_v16 (F := Ideal) x0 x1 x8 x9 (ix3 p n j)
      = (∑ k : Fin 3, x0 (ix3 p n k) * x8 (ix2 ⟨k.val, by omega⟩ j))
        + (∑ k : Fin 192, x1 (ix3 p n k) * x8 (ix2 ⟨3 + k.val, by omega⟩ j)) + x9 (ix1 j) := by
  show val_main_v13 (F := Ideal) x0 x1 x8 (ix3 p n j) + val_main_v15 (F := Ideal) x9 (ix3 p n j) = _
  refine congrArg₂ (· + ·) ?_ ?_
  · refine (val_main_v13_apply x0 x1 x8 (ix3 p n j)).trans ?_
    have el : ∀ k : Fin 195, lidx_main_v13 (ix3 p n j) k = ix3 p n k := fun k =>
      funext fun a => match a with | ⟨0, _⟩ => rfl | ⟨1, _⟩ => rfl | ⟨2, _⟩ => rfl
    have er : ∀ k : Fin 195, ridx_main_v13 (ix3 p n j) k = ix2 k j := fun k =>
      funext fun a => match a with | ⟨0, _⟩ => rfl | ⟨1, _⟩ => rfl
    simp only [el, er]
    exact joined_sum x0 x1 p n (fun k => x8 (ix2 k j))
  · refine (val_main_v15_apply x9 (ix3 p n j)).trans ((val_main_v14_apply x9 _).trans (congrArg x9 ?_))
    exact funext fun a => match a with
      | ⟨0, _⟩ => by first | rfl | (apply Fin.ext; show (0 : ℕ) = j.val; omega)

/-- The head's value at a point: the contraction over the 195 joined inputs, plus its bias. -/
theorem head20 (j : Fin 3) :
    val_main_v20 (F := Ideal) x0 x1 x10 x11 (ix3 p n j)
      = (∑ k : Fin 3, x0 (ix3 p n k) * x10 (ix2 ⟨k.val, by omega⟩ j))
        + (∑ k : Fin 192, x1 (ix3 p n k) * x10 (ix2 ⟨3 + k.val, by omega⟩ j)) + x11 (ix1 j) := by
  show val_main_v17 (F := Ideal) x0 x1 x10 (ix3 p n j) + val_main_v19 (F := Ideal) x11 (ix3 p n j) = _
  refine congrArg₂ (· + ·) ?_ ?_
  · refine (val_main_v17_apply x0 x1 x10 (ix3 p n j)).trans ?_
    have el : ∀ k : Fin 195, lidx_main_v17 (ix3 p n j) k = ix3 p n k := fun k =>
      funext fun a => match a with | ⟨0, _⟩ => rfl | ⟨1, _⟩ => rfl | ⟨2, _⟩ => rfl
    have er : ∀ k : Fin 195, ridx_main_v17 (ix3 p n j) k = ix2 k j := fun k =>
      funext fun a => match a with | ⟨0, _⟩ => rfl | ⟨1, _⟩ => rfl
    simp only [el, er]
    exact joined_sum x0 x1 p n (fun k => x10 (ix2 k j))
  · refine (val_main_v19_apply x11 (ix3 p n j)).trans ((val_main_v18_apply x11 _).trans (congrArg x11 ?_))
    exact funext fun a => match a with
      | ⟨0, _⟩ => by first | rfl | (apply Fin.ext; show (0 : ℕ) = j.val; omega)

/-! ## The six packed pieces at a point -/

variable (y : Fin 14 → EReal)

theorem ref_scales (hy : ∀ j : Fin 3, Decoder.yScl y j = val_main_v12 (F := Ideal) x0 x1 x6 x7 (ix3 p n j)) (j : Fin 3) :
    val_main_v31 (F := Ideal) x0 x1 x6 x7 (ix3 p n j) = Decoder.scales y j :=
  (congrArg (fun z => min (Ideal.exp (z - Decoder.cBias)) Decoder.cCap) (hy j)).symm

theorem ref_colors (hy : ∀ j : Fin 3, Decoder.yShs y j = val_main_v20 (F := Ideal) x0 x1 x10 x11 (ix3 p n j)) (j : Fin 3) :
    val_main_v38 (F := Ideal) x0 x1 x10 x11 (ix3 p n j) = Decoder.colors y j :=
  (congrArg (fun z => min Decoder.cOne (max Decoder.cZero z)) (hy j)).symm

/-- One over one plus the exponential of the negated logit is the logistic function. -/
theorem ref_opac (u : Fin 1) (hy : Decoder.yOp y = val_main_v16 (F := Ideal) x0 x1 x8 x9 (ix3 p n u)) :
    val_main_v37 (F := Ideal) x0 x1 x8 x9 (ix3 p n u) = Decoder.opac y := by
  show Ideal.div (Ideal.ofBits .f32 0x3F800000#32)
    (Ideal.ofBits .f32 0x3F800000#32 + Ideal.exp (-(val_main_v16 (F := Ideal) x0 x1 x8 x9 (ix3 p n u)))) = _
  rw [← hy, Decoder.ofBits_one]
  rfl

theorem ref_rot (hy : ∀ k : Fin 4, Decoder.yRot y k = val_main_v8 (F := Ideal) x0 x1 x4 x5 (ix3 p n k)) (j : Fin 4) :
    val_main_v26 (F := Ideal) x0 x1 x4 x5 (ix3 p n j) = Decoder.rot y j := by
  have e1 : idx_main_v25 (ix3 p n j) = ix3 p n (0 : Fin 1) :=
    funext fun a => match a with | ⟨0, _⟩ => rfl | ⟨1, _⟩ => rfl | ⟨2, _⟩ => rfl
  have e2 : ∀ k : Fin 4, idx_main_call0_v1 (idx_main_call0_v2 (ix3 p n (0 : Fin 1))) k = ix3 p n k := fun k =>
    funext fun a => match a with | ⟨0, _⟩ => rfl | ⟨1, _⟩ => rfl | ⟨2, _⟩ => rfl
  have e0 : (val_main_call0_cst (F := Ideal)) (Shape.Idx.first h_S_) = 0 := Ideal.ofBits_zero_f32
  have hs : (∑ k : Fin 4, val_main_call0_v0 (F := Ideal) x0 x1 x4 x5 (idx_main_call0_v1 (idx_main_call0_v2 (ix3 p n (0 : Fin 1))) k))
      = ∑ k : Fin 4, Decoder.yRot y k * Decoder.yRot y k :=
    Finset.sum_congr rfl fun k _ => by
      rw [e2 k, val_main_call0_v0_apply, ← hy k]
      rfl
  rw [val_main_v26_apply, val_main_v25_apply, e1, val_main_v24_apply, val_main_v22_apply, val_main_call0_v2_apply,
    val_main_call0_v1_apply, e0, zero_add, hs, ← hy j]
  rfl

variable (pt : Fin 3 → EReal) (P : Fin 4 → Fin 4 → EReal)

/-- The clip coordinates: the four-term contraction of the homogeneous position (x, y, z, 1) with the projection. -/
theorem ref_clip (hpt : ∀ i : Fin 3, pt i = x0 (ix3 p n i))
    (hy : ∀ i : Fin 3, Decoder.yOff y i = val_main_v4 (F := Ideal) x0 x1 x2 x3 (ix3 p n i))
    (hP : ∀ a b : Fin 4, P a b = val_main_v100 (F := Ideal) x12 x13 (ix3 p a b)) (j : Fin 4) :
    val_main_v104 (F := Ideal) x0 x1 x2 x3 x12 x13 (ix3 p n j) = Decoder.clip pt y P j := by
  refine (val_main_v104_apply x0 x1 x2 x3 x12 x13 (ix3 p n j)).trans ?_
  have el : ∀ k : Fin 4, lidx_main_v104 (ix3 p n j) k = ix3 p n k := fun k =>
    funext fun a => match a with | ⟨0, _⟩ => rfl | ⟨1, _⟩ => rfl | ⟨2, _⟩ => rfl
  have er : ∀ k : Fin 4, ridx_main_v104 (ix3 p n j) k = ix3 p k j := fun k =>
    funext fun a => match a with | ⟨0, _⟩ => rfl | ⟨1, _⟩ => rfl | ⟨2, _⟩ => rfl
  have hs : (∑ k : Fin 4, val_main_v103 (F := Ideal) x0 x1 x2 x3 (lidx_main_v104 (ix3 p n j) k) * val_main_v100 (F := Ideal) x12 x13 (ridx_main_v104 (ix3 p n j) k))
      = ∑ k : Fin 4, val_main_v103 (F := Ideal) x0 x1 x2 x3 (ix3 p n k) * val_main_v100 (F := Ideal) x12 x13 (ix3 p k j) :=
    Finset.sum_congr rfl fun k _ => by rw [el k, er k]
  rw [hs]
  have hx : ∀ i : Fin 3, val_main_v103 (F := Ideal) x0 x1 x2 x3 (ix3 p n ⟨i.val, by omega⟩) = Decoder.xyz pt y i := fun i => by
    unfold val_main_v103
    refine (concatenate_pair_apply_left 2 _ _ concatenates_S16x25000x3_S16x25000x1_S16x25000x4_d2 _ rfl (ix3 p n i)
      (fun b => match b with | ⟨0, _⟩ => rfl | ⟨1, _⟩ => rfl | ⟨2, _⟩ => rfl)).trans ?_
    show x0 (ix3 p n i) + val_main_v4 (F := Ideal) x0 x1 x2 x3 (ix3 p n i) = _
    rw [← hpt i, ← hy i]
    rfl
  have h1 : val_main_v103 (F := Ideal) x0 x1 x2 x3 (ix3 p n (3 : Fin 4)) = 1 := by
    unfold val_main_v103
    refine (concatenate_pair_apply_right 2 _ _ concatenates_S16x25000x3_S16x25000x1_S16x25000x4_d2 _ rfl rfl (ix3 p n (0 : Fin 1))
      (fun b hb => match b, hb with | ⟨0, _⟩, _ => rfl | ⟨1, _⟩, _ => rfl | ⟨2, _⟩, hb => absurd rfl hb) rfl).trans ?_
    exact Decoder.ofBits_one
  rw [Fin.sum_univ_four]
  have h0' := hx 0
  have h1' := hx 1
  have h2' := hx 2
  show val_main_v103 (F := Ideal) x0 x1 x2 x3 (ix3 p n ⟨(0 : Fin 3).val, by omega⟩) * _
      + val_main_v103 (F := Ideal) x0 x1 x2 x3 (ix3 p n ⟨(1 : Fin 3).val, by omega⟩) * _
      + val_main_v103 (F := Ideal) x0 x1 x2 x3 (ix3 p n ⟨(2 : Fin 3).val, by omega⟩) * _
      + val_main_v103 (F := Ideal) x0 x1 x2 x3 (ix3 p n (3 : Fin 4)) * _ = _
  rw [h0', h1', h2', h1, one_mul, ← hP 0 j, ← hP 1 j, ← hP 2 j, ← hP 3 j]
  rfl

theorem ref_ndc (hpt : ∀ i : Fin 3, pt i = x0 (ix3 p n i))
    (hy : ∀ i : Fin 3, Decoder.yOff y i = val_main_v4 (F := Ideal) x0 x1 x2 x3 (ix3 p n i))
    (hP : ∀ a b : Fin 4, P a b = val_main_v100 (F := Ideal) x12 x13 (ix3 p a b)) (j : Fin 2) :
    val_main_v110 (F := Ideal) x0 x1 x2 x3 x12 x13 (ix3 p n j) = Decoder.ndc pt y P j := by
  show Ideal.div (val_main_v108 (F := Ideal) x0 x1 x2 x3 x12 x13 (ix3 p n j)) (val_main_v109 (F := Ideal) x0 x1 x2 x3 x12 x13 (ix3 p n j)) = _
  refine congrArg₂ Ideal.div ?_ ?_
  · refine (val_main_v108_apply x0 x1 x2 x3 x12 x13 (ix3 p n j)).trans ?_
    have e : idx_main_v108 (ix3 p n j) = ix3 p n (⟨j.val, by omega⟩ : Fin 4) :=
      funext fun a => match a with | ⟨0, _⟩ => rfl | ⟨1, _⟩ => rfl | ⟨2, _⟩ => rfl
    rw [e]
    exact ref_clip x0 x1 x2 x3 x12 x13 p n y pt P hpt hy hP _
  · refine (val_main_v109_apply x0 x1 x2 x3 x12 x13 (ix3 p n j)).trans ?_
    have e : idx_main_v109 (ix3 p n j) = ix3 p n (0 : Fin 1) :=
      funext fun a => match a with | ⟨0, _⟩ => rfl | ⟨1, _⟩ => rfl | ⟨2, _⟩ => rfl
    rw [e]
    show val_main_v105 (F := Ideal) x0 x1 x2 x3 x12 x13 (ix3 p n (0 : Fin 1)) + Decoder.cEpsW = _
    refine congrArg (· + Decoder.cEpsW) ?_
    refine (val_main_v105_apply x0 x1 x2 x3 x12 x13 _).trans ?_
    have e' : idx_main_v105 (ix3 p n (0 : Fin 1)) = ix3 p n (3 : Fin 4) :=
      funext fun a => match a with | ⟨0, _⟩ => rfl | ⟨1, _⟩ => rfl | ⟨2, _⟩ => rfl
    rw [e']
    exact ref_clip x0 x1 x2 x3 x12 x13 p n y pt P hpt hy hP 3

theorem ref_depth (hpt : ∀ i : Fin 3, pt i = x0 (ix3 p n i))
    (hy : ∀ i : Fin 3, Decoder.yOff y i = val_main_v4 (F := Ideal) x0 x1 x2 x3 (ix3 p n i))
    (hP : ∀ a b : Fin 4, P a b = val_main_v100 (F := Ideal) x12 x13 (ix3 p a b)) (u : Fin 1) :
    val_main_v112 (F := Ideal) x0 x1 x2 x3 x12 x13 (ix3 p n u) = Decoder.depth pt y P := by
  have hu : u = 0 := Subsingleton.elim _ _
  subst hu
  show Ideal.div (val_main_v111 (F := Ideal) x0 x1 x2 x3 x12 x13 (ix3 p n (0 : Fin 1)))
    (val_main_v105 (F := Ideal) x0 x1 x2 x3 x12 x13 (ix3 p n (0 : Fin 1)) + Decoder.cEpsW) = _
  refine congrArg₂ Ideal.div ?_ (congrArg (· + Decoder.cEpsW) ?_)
  · refine (val_main_v111_apply x0 x1 x2 x3 x12 x13 _).trans ?_
    have e : idx_main_v111 (ix3 p n (0 : Fin 1)) = ix3 p n (2 : Fin 4) :=
      funext fun a => match a with | ⟨0, _⟩ => rfl | ⟨1, _⟩ => rfl | ⟨2, _⟩ => rfl
    rw [e]
    exact ref_clip x0 x1 x2 x3 x12 x13 p n y pt P hpt hy hP 2
  · refine (val_main_v105_apply x0 x1 x2 x3 x12 x13 _).trans ?_
    have e' : idx_main_v105 (ix3 p n (0 : Fin 1)) = ix3 p n (3 : Fin 4) :=
      funext fun a => match a with | ⟨0, _⟩ => rfl | ⟨1, _⟩ => rfl | ⟨2, _⟩ => rfl
    rw [e']
    exact ref_clip x0 x1 x2 x3 x12 x13 p n y pt P hpt hy hP 3

end Cert.ReferenceIdeal.Rows

end
-- ==== Proof.KernelValue.lean ====
/-
  The kernel's result array is the reference's.

  The result is named as the reference's own function of the fourteen arguments.  Reading that function at point `n` of
  frame `p` and column `col` lands in one of its six packed pieces; the grid point that holds `n` in its block of 5000
  wrote, at the block's row for `n`, the same piece of the per-point specification, applied to the same coordinates,
  to decoder outputs that agree head by head with the reference's, and to the same projection.  Every index of the
  result lies in exactly such a block, so the array after the run is that function.
-/
import proofs.«172457_j36189394436976_2_alg».proof.Proof.KernelIdealRun
import proofs.«172457_j36189394436976_2_alg».proof.Proof.KernelRows
import proofs.«172457_j36189394436976_2_alg».proof.Proof.KernelHost
import proofs.«172457_j36189394436976_2_alg».proof.Proof.ReferenceRows

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen Cert.KernelIdeal.Host Cert.KernelIdeal.Rows
open Cert.ReferenceIdeal.Read Cert.ReferenceIdeal.Rows
open Idealize.ShloMosaic.Pipeline (Dat)

variable (m : (ℓ : Loc nD τ sig) → Buf (Elt Ideal) ℓ) (ρ : Dev nD → PrngReg)

/-! ## The result, and its six packed pieces -/

/-- The reference's result as a function of the kernel's fourteen arguments. -/
def G (c : Dev nD) : S16x25000x14.Idx → EReal :=
  val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem G_piece0 (c : Dev nD) (p : Fin 16) (n : Fin 25000) (j : Fin 2) :
    G m c (ix3 p n ⟨j.val, by omega⟩) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg12)) (m ((c : Thread nD τ).loc main_arg13)) (ix3 p n j) := by
  unfold G val_main_v113
  refine concatenate_apply_piece 2 _ _ _ 0 ?_ _ _ ?_ ?_ 0 ?_ _ ?_ ?_
  · show 0 < 6; omega
  · rfl
  · rfl
  · rfl
  · exact fun b hb => match b, hb with | ⟨0, _⟩, _ => rfl | ⟨1, _⟩, _ => rfl | ⟨2, _⟩, hb => absurd rfl hb
  · exact Nat.zero_add _
theorem G_piece1 (c : Dev nD) (p : Fin 16) (n : Fin 25000) (j : Fin 1) :
    G m c (ix3 p n ⟨2 + j.val, by omega⟩) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg12)) (m ((c : Thread nD τ).loc main_arg13)) (ix3 p n j) := by
  unfold G val_main_v113
  refine concatenate_apply_piece 2 _ _ _ 1 ?_ _ _ ?_ ?_ 2 ?_ _ ?_ ?_
  · show 1 < 6; omega
  · rfl
  · rfl
  · rfl
  · exact fun b hb => match b, hb with | ⟨0, _⟩, _ => rfl | ⟨1, _⟩, _ => rfl | ⟨2, _⟩, hb => absurd rfl hb
  · exact rfl
theorem G_piece2 (c : Dev nD) (p : Fin 16) (n : Fin 25000) (j : Fin 3) :
    G m c (ix3 p n ⟨3 + j.val, by omega⟩) = val_main_v31 (F := Ideal) (m ((c : Thread nD τ).loc main_arg0)) (m ((c : Thread nD τ).loc main_arg1)) (m ((c : Thread nD τ).loc main_arg6)) (m ((c : Thread nD τ).loc main_arg7)) (ix3 p n j) := by
  unfold G val_main_v113
  refine concatenate_apply_piece 2 _ _ _ 2 ?_ _ _ ?_ ?_ 3 ?_ _ ?_ ?_
  · show 2 < 6; omega
  · rfl
  · rfl
  · rfl
  · exact fun b hb => match b, hb with | ⟨0, _⟩, _ => rfl | ⟨1, _⟩, _ => rfl | ⟨2, _⟩, hb => absurd rfl hb
  · exact rfl
theorem G_piece3 (c : Dev nD) (p : Fin 16) (n : Fin 25000) (j : Fin 1) :
    G m c (ix3 p n ⟨6 + j.val, by omega⟩) = val_main_v37 (F := Ideal) (m ((c : Thread nD τ).loc main_arg0)) (m ((c : Thread nD τ).loc main_arg1)) (m ((c : Thread nD τ).loc main_arg8)) (m ((c : Thread nD τ).loc main_arg9)) (ix3 p n j) := by
  unfold G val_main_v113
  refine concatenate_apply_piece 2 _ _ _ 3 ?_ _ _ ?_ ?_ 6 ?_ _ ?_ ?_
  · show 3 < 6; omega
  · rfl
  · rfl
  · rfl
  · exact fun b hb => match b, hb with | ⟨0, _⟩, _ => rfl | ⟨1, _⟩, _ => rfl | ⟨2, _⟩, hb => absurd rfl hb
  · exact rfl
theorem G_piece4 (c : Dev nD) (p : Fin 16) (n : Fin 25000) (j : Fin 3) :
    G m c (ix3 p n ⟨7 + j.val, by omega⟩) = val_main_v38 (F := Ideal) (m ((c : Thread nD τ).loc main_arg0)) (m ((c : Thread nD τ).loc main_arg1)) (m ((c : Thread nD τ).loc main_arg10)) (m ((c : Thread nD τ).loc main_arg11)) (ix3 p n j) := by
  unfold G val_main_v113
  refine concatenate_apply_piece 2 _ _ _ 4 ?_ _ _ ?_ ?_ 7 ?_ _ ?_ ?_
  · show 4 < 6; omega
  · rfl
  · rfl
  · rfl
  · exact fun b hb => match b, hb with | ⟨0, _⟩, _ => rfl | ⟨1, _⟩, _ => rfl | ⟨2, _⟩, hb => absurd rfl hb
  · exact rfl
theorem G_piece5 (c : Dev nD) (p : Fin 16) (n : Fin 25000) (j : Fin 4) :
    G m c (ix3 p n ⟨10 + j.val, by omega⟩) = val_main_v26 (F := Ideal) (m ((c : Thread nD τ).loc main_arg0)) (m ((c : Thread nD τ).loc main_arg1)) (m ((c : Thread nD τ).loc main_arg4)) (m ((c : Thread nD τ).loc main_arg5)) (ix3 p n j) := by
  unfold G val_main_v113
  refine concatenate_apply_piece 2 _ _ _ 5 ?_ _ _ ?_ ?_ 10 ?_ _ ?_ ?_
  · show 5 < 6; omega
  · rfl
  · rfl
  · rfl
  · exact fun b hb => match b, hb with | ⟨0, _⟩, _ => rfl | ⟨1, _⟩, _ => rfl | ⟨2, _⟩, hb => absurd rfl hb
  · exact rfl

/-! ## The joined weights and biases, head by head -/

theorem Wall_4 (c : Dev nD) (k : Fin 195) (j : Fin 3) :
    Wall m c (ix2 k ⟨j.val, by omega⟩) = (m ((c : Thread nD τ).loc main_arg2)) (ix2 k j) := by
  unfold Wall
  refine concatenate_apply_piece 1 _ _ _ 0 ?_ _ _ ?_ ?_ 0 ?_ _ ?_ ?_
  · show 0 < 5; omega
  · rfl
  · rfl
  · rfl
  · exact fun b hb => match b, hb with | ⟨0, _⟩, _ => rfl | ⟨1, _⟩, hb => absurd rfl hb
  · exact Nat.zero_add _
theorem Ball_4 (c : Dev nD) (j : Fin 3) :
    Ball m c (ix1 ⟨j.val, by omega⟩) = (m ((c : Thread nD τ).loc main_arg3)) (ix1 j) := by
  unfold Ball
  refine concatenate_apply_piece 0 _ _ _ 0 ?_ _ _ ?_ ?_ 0 ?_ _ ?_ ?_
  · show 0 < 5; omega
  · rfl
  · rfl
  · rfl
  · exact fun b hb => match b, hb with | ⟨0, _⟩, hb => absurd rfl hb
  · exact Nat.zero_add _
theorem Wall_8 (c : Dev nD) (k : Fin 195) (j : Fin 4) :
    Wall m c (ix2 k ⟨3 + j.val, by omega⟩) = (m ((c : Thread nD τ).loc main_arg4)) (ix2 k j) := by
  unfold Wall
  refine concatenate_apply_piece 1 _ _ _ 1 ?_ _ _ ?_ ?_ 3 ?_ _ ?_ ?_
  · show 1 < 5; omega
  · rfl
  · rfl
  · rfl
  · exact fun b hb => match b, hb with | ⟨0, _⟩, _ => rfl | ⟨1, _⟩, hb => absurd rfl hb
  · exact rfl
theorem Ball_8 (c : Dev nD) (j : Fin 4) :
    Ball m c (ix1 ⟨3 + j.val, by omega⟩) = (m ((c : Thread nD τ).loc main_arg5)) (ix1 j) := by
  unfold Ball
  refine concatenate_apply_piece 0 _ _ _ 1 ?_ _ _ ?_ ?_ 3 ?_ _ ?_ ?_
  · show 1 < 5; omega
  · rfl
  · rfl
  · rfl
  · exact fun b hb => match b, hb with | ⟨0, _⟩, hb => absurd rfl hb
  · exact rfl
theorem Wall_12 (c : Dev nD) (k : Fin 195) (j : Fin 3) :
    Wall m c (ix2 k ⟨7 + j.val, by omega⟩) = (m ((c : Thread nD τ).loc main_arg6)) (ix2 k j) := by
  unfold Wall
  refine concatenate_apply_piece 1 _ _ _ 2 ?_ _ _ ?_ ?_ 7 ?_ _ ?_ ?_
  · show 2 < 5; omega
  · rfl
  · rfl
  · rfl
  · exact fun b hb => match b, hb with | ⟨0, _⟩, _ => rfl | ⟨1, _⟩, hb => absurd rfl hb
  · exact rfl
theorem Ball_12 (c : Dev nD) (j : Fin 3) :
    Ball m c (ix1 ⟨7 + j.val, by omega⟩) = (m ((c : Thread nD τ).loc main_arg7)) (ix1 j) := by
  unfold Ball
  refine concatenate_apply_piece 0 _ _ _ 2 ?_ _ _ ?_ ?_ 7 ?_ _ ?_ ?_
  · show 2 < 5; omega
  · rfl
  · rfl
  · rfl
  · exact fun b hb => match b, hb with | ⟨0, _⟩, hb => absurd rfl hb
  · exact rfl
theorem Wall_16 (c : Dev nD) (k : Fin 195) (j : Fin 1) :
    Wall m c (ix2 k ⟨10 + j.val, by omega⟩) = (m ((c : Thread nD τ).loc main_arg8)) (ix2 k j) := by
  unfold Wall
  refine concatenate_apply_piece 1 _ _ _ 3 ?_ _ _ ?_ ?_ 10 ?_ _ ?_ ?_
  · show 3 < 5; omega
  · rfl
  · rfl
  · rfl
  · exact fun b hb => match b, hb with | ⟨0, _⟩, _ => rfl | ⟨1, _⟩, hb => absurd rfl hb
  · exact rfl
theorem Ball_16 (c : Dev nD) (j : Fin 1) :
    Ball m c (ix1 ⟨10 + j.val, by omega⟩) = (m ((c : Thread nD τ).loc main_arg9)) (ix1 j) := by
  unfold Ball
  refine concatenate_apply_piece 0 _ _ _ 3 ?_ _ _ ?_ ?_ 10 ?_ _ ?_ ?_
  · show 3 < 5; omega
  · rfl
  · rfl
  · rfl
  · exact fun b hb => match b, hb with | ⟨0, _⟩, hb => absurd rfl hb
  · exact rfl
theorem Wall_20 (c : Dev nD) (k : Fin 195) (j : Fin 3) :
    Wall m c (ix2 k ⟨11 + j.val, by omega⟩) = (m ((c : Thread nD τ).loc main_arg10)) (ix2 k j) := by
  unfold Wall
  refine concatenate_apply_piece 1 _ _ _ 4 ?_ _ _ ?_ ?_ 11 ?_ _ ?_ ?_
  · show 4 < 5; omega
  · rfl
  · rfl
  · rfl
  · exact fun b hb => match b, hb with | ⟨0, _⟩, _ => rfl | ⟨1, _⟩, hb => absurd rfl hb
  · exact rfl
theorem Ball_20 (c : Dev nD) (j : Fin 3) :
    Ball m c (ix1 ⟨11 + j.val, by omega⟩) = (m ((c : Thread nD τ).loc main_arg11)) (ix1 j) := by
  unfold Ball
  refine concatenate_apply_piece 0 _ _ _ 4 ?_ _ _ ?_ ?_ 11 ?_ _ ?_ ?_
  · show 4 < 5; omega
  · rfl
  · rfl
  · rfl
  · exact fun b hb => match b, hb with | ⟨0, _⟩, hb => absurd rfl hb
  · exact rfl

/-! ## The grid: which block each window holds at a point -/

/-- Decided over the 80 points: the output's block index is (frame, fifth, 0); the two point arrays move with it, the
    projection with the frame alone, the weights and the bias stay put. -/
theorem idx_facts : ∀ t : Fin cfg0.N,
    win0_6.index t (0 : Fin 3) ≤ 15 ∧ win0_6.index t (1 : Fin 3) ≤ 4 ∧ win0_6.index t (2 : Fin 3) = 0
    ∧ win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = win0_6.index t (1 : Fin 3) ∧ win0_1.index t (2 : Fin 3) = 0
    ∧ win0_2.index t (0 : Fin 3) = win0_6.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every (frame, fifth) is some point's block. -/
theorem idx_onto : ∀ (q0 : Fin 16) (q1 : Fin 5), ∃ t : Fin cfg0.N, win0_6.index t = ![q0.val, q1.val, 0] :=
  (by decide +kernel : ∀ (q0 : Fin 16) (q1 : Fin 5), ∃ t : Fin grid0.N, win0_6.index t = ![q0.val, q1.val, 0])

/-- The frame a grid point works on, and the point of that frame its block's row `r` is. -/
def pOf (t : Fin cfg0.N) : Fin 16 := ⟨win0_6.index t (0 : Fin 3), by have := (idx_facts t).1; omega⟩
def nOf (t : Fin cfg0.N) (r : Fin 5000) : Fin 25000 :=
  ⟨win0_6.index t (1 : Fin 3) * 5000 + r.val, by have := (idx_facts t).2.1; omega⟩

theorem emb6 (t : Fin cfg0.N) (r : Fin 5000) (col : Fin 14) :
    ((cfg0.win 6).blk t).view.emb (ix3 (0 : Fin 1) r col) = ix3 (pOf t) (nOf t r) col := by
  obtain ⟨e0, e1, e2, _⟩ := idx_facts t
  funext a; apply Fin.ext
  match a with
  | ⟨0, _⟩ => show win0_6.index t (0 : Fin 3) * 1 + 1 * 0 = win0_6.index t (0 : Fin 3); omega
  | ⟨1, _⟩ => show win0_6.index t (1 : Fin 3) * 5000 + 1 * r.val = win0_6.index t (1 : Fin 3) * 5000 + r.val; omega
  | ⟨2, _⟩ => show win0_6.index t (2 : Fin 3) * 14 + 1 * col.val = col.val; omega

/-! ## What the staged blocks hold -/

theorem blk0 (c : Dev nD) (t : Fin cfg0.N) (r : Fin 5000) (i : Fin 3) :
    iblk m c 0 t (ix3 (0 : Fin 1) r i) = (m ((c : Thread nD τ).loc main_arg0)) (ix3 (pOf t) (nOf t r) i) := by
  obtain ⟨e0, e1, e2, a0, a1, a2, _⟩ := idx_facts t
  show V m c main_arg0 (((cfg0.win 0).blk t).view.emb (ix3 (0 : Fin 1) r i)) = _
  rw [V_main_arg0]
  refine congrArg _ (funext fun a => Fin.ext ?_)
  match a with
  | ⟨0, _⟩ => show win0_0.index t (0 : Fin 3) * 1 + 1 * 0 = win0_6.index t (0 : Fin 3); omega
  | ⟨1, _⟩ => show win0_0.index t (1 : Fin 3) * 5000 + 1 * r.val = win0_6.index t (1 : Fin 3) * 5000 + r.val; omega
  | ⟨2, _⟩ => show win0_0.index t (2 : Fin 3) * 3 + 1 * i.val = i.val; omega

theorem blk1 (c : Dev nD) (t : Fin cfg0.N) (r : Fin 5000) (k : Fin 192) :
    iblk m c 1 t (ix3 (0 : Fin 1) r k) = (m ((c : Thread nD τ).loc main_arg1)) (ix3 (pOf t) (nOf t r) k) := by
  obtain ⟨e0, e1, e2, a0, a1, a2, b0, b1, b2, _⟩ := idx_facts t
  show V m c main_arg1 (((cfg0.win 1).blk t).view.emb (ix3 (0 : Fin 1) r k)) = _
  rw [V_main_arg1]
  refine congrArg _ (funext fun a => Fin.ext ?_)
  match a with
  | ⟨0, _⟩ => show win0_1.index t (0 : Fin 3) * 1 + 1 * 0 = win0_6.index t (0 : Fin 3); omega
  | ⟨1, _⟩ => show win0_1.index t (1 : Fin 3) * 5000 + 1 * r.val = win0_6.index t (1 : Fin 3) * 5000 + r.val; omega
  | ⟨2, _⟩ => show win0_1.index t (2 : Fin 3) * 192 + 1 * k.val = k.val; omega

theorem blk2 (c : Dev nD) (t : Fin cfg0.N) (a b : Fin 4) :
    iblk m c 2 t (ix3 (0 : Fin 1) a b) = val_main_v100 (F := Ideal) (m ((c : Thread nD τ).loc main_arg12)) (m ((c : Thread nD τ).loc main_arg13)) (ix3 (pOf t) a b) := by
  obtain ⟨e0, e1, e2, a0, a1, a2, b0, b1, b2, c0, c1, c2, _⟩ := idx_facts t
  show (V m c main_v66 : S16x4x4.Idx → EReal) (((cfg0.win 2).blk t).view.emb (ix3 (0 : Fin 1) a b)) = _
  rw [V_v66]
  refine congrArg _ (funext fun d => Fin.ext ?_)
  match d with
  | ⟨0, _⟩ => show win0_2.index t (0 : Fin 3) * 1 + 1 * 0 = win0_6.index t (0 : Fin 3); omega
  | ⟨1, _⟩ => show win0_2.index t (1 : Fin 3) * 4 + 1 * a.val = a.val; omega
  | ⟨2, _⟩ => show win0_2.index t (2 : Fin 3) * 4 + 1 * b.val = b.val; omega

theorem blk3 (c : Dev nD) (t : Fin cfg0.N) (k : Fin 3) (o : Fin 14) :
    iblk m c 3 t (ix2 k o) = Wall m c (ix2 ⟨k.val, by omega⟩ o) := by
  obtain ⟨e0, e1, e2, a0, a1, a2, b0, b1, b2, c0, c1, c2, d0, d1, _⟩ := idx_facts t
  have he : ((cfg0.win 3).blk t).view.emb (ix2 k o) = ix2 k o := funext fun d => Fin.ext (by
    match d with
    | ⟨0, _⟩ => show win0_3.index t (0 : Fin 2) * 3 + 1 * k.val = k.val; omega
    | ⟨1, _⟩ => show win0_3.index t (1 : Fin 2) * 14 + 1 * o.val = o.val; omega)
  show (V m c main_v3 : S3x14.Idx → EReal) (((cfg0.win 3).blk t).view.emb (ix2 k o)) = _
  rw [he, V_v3]
  refine (ValueIdx.slice2_axis0_eq 0 (Wall m c) slices_S195x14_S3x14_0_0 k o).trans ?_
  exact congrArg (fun z => Wall m c (ix2 z o)) (Fin.ext (Nat.zero_add _))

theorem blk4 (c : Dev nD) (t : Fin cfg0.N) (k : Fin 192) (o : Fin 14) :
    iblk m c 4 t (ix2 k o) = Wall m c (ix2 ⟨3 + k.val, by omega⟩ o) := by
  obtain ⟨e0, e1, e2, a0, a1, a2, b0, b1, b2, c0, c1, c2, d0, d1, f0, f1, _⟩ := idx_facts t
  have he : ((cfg0.win 4).blk t).view.emb (ix2 k o) = ix2 k o := funext fun d => Fin.ext (by
    match d with
    | ⟨0, _⟩ => show win0_4.index t (0 : Fin 2) * 192 + 1 * k.val = k.val; omega
    | ⟨1, _⟩ => show win0_4.index t (1 : Fin 2) * 14 + 1 * o.val = o.val; omega)
  show (V m c main_v4 : S192x14.Idx → EReal) (((cfg0.win 4).blk t).view.emb (ix2 k o)) = _
  rw [he, V_v4]
  exact ValueIdx.slice2_axis0_eq 3 (Wall m c) slices_S195x14_S192x14_3_0 k o

theorem blk5 (c : Dev nD) (t : Fin cfg0.N) (o : Fin 14) :
    iblk m c 5 t (ix2 (0 : Fin 1) o) = Ball m c (ix1 o) := by
  obtain ⟨e0, e1, e2, a0, a1, a2, b0, b1, b2, c0, c1, c2, d0, d1, f0, f1, g0, g1⟩ := idx_facts t
  have he : ((cfg0.win 5).blk t).view.emb (ix2 (0 : Fin 1) o) = ix2 (0 : Fin 1) o := funext fun d => Fin.ext (by
    match d with
    | ⟨0, _⟩ => show win0_5.index t (0 : Fin 2) * 1 + 1 * 0 = 0; omega
    | ⟨1, _⟩ => show win0_5.index t (1 : Fin 2) * 14 + 1 * o.val = o.val; omega)
  show (V m c main_v2 : S1x14.Idx → EReal) (((cfg0.win 5).blk t).view.emb (ix2 (0 : Fin 1) o)) = _
  rw [he, V_v2]
  exact broadcastInDim_apply _ bcast_S14_S1x14_1 (Ball m c) (ix2 (0 : Fin 1) o) (ix1 o) (fun a => match a with
    | ⟨0, _⟩ => by show o.val = if (14 : Nat) = 1 then 0 else o.val; rw [if_neg (by decide)])

/-! ## The decoder outputs of a row agree with the reference's heads -/

theorem bridge_4 (c : Dev nD) (t : Fin cfg0.N) (r : Fin 5000) (j : Fin 3) :
    (k0_pay5 (F := Ideal) (iblk m c 0 t) (iblk m c 1 t) (iblk m c 3 t) (iblk m c 4 t) (iblk m c 5 t)) (ix2 r ⟨j.val, by omega⟩)
      = val_main_v4 (F := Ideal) (m ((c : Thread nD τ).loc main_arg0)) (m ((c : Thread nD τ).loc main_arg1)) (m ((c : Thread nD τ).loc main_arg2)) (m ((c : Thread nD τ).loc main_arg3)) (ix3 (pOf t) (nOf t r) j) := by
  refine (pay5_apply (iblk m c 0 t) (iblk m c 1 t) (iblk m c 3 t) (iblk m c 4 t) (iblk m c 5 t) r _).trans ?_
  refine Eq.trans ?_ (head4 (m ((c : Thread nD τ).loc main_arg0)) (m ((c : Thread nD τ).loc main_arg1)) (m ((c : Thread nD τ).loc main_arg2)) (m ((c : Thread nD τ).loc main_arg3)) (pOf t) (nOf t r) j).symm
  refine congrArg₂ (· + ·) (congrArg₂ (· + ·) (Finset.sum_congr rfl fun k _ => congrArg₂ (· * ·) ?_ ?_)
    (Finset.sum_congr rfl fun k _ => congrArg₂ (· * ·) ?_ ?_)) ?_
  · exact blk0 m c t r k
  · exact (blk3 m c t k _).trans (Wall_4 m c _ j)
  · exact blk1 m c t r k
  · exact (blk4 m c t k _).trans (Wall_4 m c _ j)
  · exact (blk5 m c t _).trans (Ball_4 m c j)

theorem bridge_8 (c : Dev nD) (t : Fin cfg0.N) (r : Fin 5000) (j : Fin 4) :
    (k0_pay5 (F := Ideal) (iblk m c 0 t) (iblk m c 1 t) (iblk m c 3 t) (iblk m c 4 t) (iblk m c 5 t)) (ix2 r ⟨3 + j.val, by omega⟩)
      = val_main_v8 (F := Ideal) (m ((c : Thread nD τ).loc main_arg0)) (m ((c : Thread nD τ).loc main_arg1)) (m ((c : Thread nD τ).loc main_arg4)) (m ((c : Thread nD τ).loc main_arg5)) (ix3 (pOf t) (nOf t r) j) := by
  refine (pay5_apply (iblk m c 0 t) (iblk m c 1 t) (iblk m c 3 t) (iblk m c 4 t) (iblk m c 5 t) r _).trans ?_
  refine Eq.trans ?_ (head8 (m ((c : Thread nD τ).loc main_arg0)) (m ((c : Thread nD τ).loc main_arg1)) (m ((c : Thread nD τ).loc main_arg4)) (m ((c : Thread nD τ).loc main_arg5)) (pOf t) (nOf t r) j).symm
  refine congrArg₂ (· + ·) (congrArg₂ (· + ·) (Finset.sum_congr rfl fun k _ => congrArg₂ (· * ·) ?_ ?_)
    (Finset.sum_congr rfl fun k _ => congrArg₂ (· * ·) ?_ ?_)) ?_
  · exact blk0 m c t r k
  · exact (blk3 m c t k _).trans (Wall_8 m c _ j)
  · exact blk1 m c t r k
  · exact (blk4 m c t k _).trans (Wall_8 m c _ j)
  · exact (blk5 m c t _).trans (Ball_8 m c j)

theorem bridge_12 (c : Dev nD) (t : Fin cfg0.N) (r : Fin 5000) (j : Fin 3) :
    (k0_pay5 (F := Ideal) (iblk m c 0 t) (iblk m c 1 t) (iblk m c 3 t) (iblk m c 4 t) (iblk m c 5 t)) (ix2 r ⟨7 + j.val, by omega⟩)
      = val_main_v12 (F := Ideal) (m ((c : Thread nD τ).loc main_arg0)) (m ((c : Thread nD τ).loc main_arg1)) (m ((c : Thread nD τ).loc main_arg6)) (m ((c : Thread nD τ).loc main_arg7)) (ix3 (pOf t) (nOf t r) j) := by
  refine (pay5_apply (iblk m c 0 t) (iblk m c 1 t) (iblk m c 3 t) (iblk m c 4 t) (iblk m c 5 t) r _).trans ?_
  refine Eq.trans ?_ (head12 (m ((c : Thread nD τ).loc main_arg0)) (m ((c : Thread nD τ).loc main_arg1)) (m ((c : Thread nD τ).loc main_arg6)) (m ((c : Thread nD τ).loc main_arg7)) (pOf t) (nOf t r) j).symm
  refine congrArg₂ (· + ·) (congrArg₂ (· + ·) (Finset.sum_congr rfl fun k _ => congrArg₂ (· * ·) ?_ ?_)
    (Finset.sum_congr rfl fun k _ => congrArg₂ (· * ·) ?_ ?_)) ?_
  · exact blk0 m c t r k
  · exact (blk3 m c t k _).trans (Wall_12 m c _ j)
  · exact blk1 m c t r k
  · exact (blk4 m c t k _).trans (Wall_12 m c _ j)
  · exact (blk5 m c t _).trans (Ball_12 m c j)

theorem bridge_16 (c : Dev nD) (t : Fin cfg0.N) (r : Fin 5000) (j : Fin 1) :
    (k0_pay5 (F := Ideal) (iblk m c 0 t) (iblk m c 1 t) (iblk m c 3 t) (iblk m c 4 t) (iblk m c 5 t)) (ix2 r ⟨10 + j.val, by omega⟩)
      = val_main_v16 (F := Ideal) (m ((c : Thread nD τ).loc main_arg0)) (m ((c : Thread nD τ).loc main_arg1)) (m ((c : Thread nD τ).loc main_arg8)) (m ((c : Thread nD τ).loc main_arg9)) (ix3 (pOf t) (nOf t r) j) := by
  refine (pay5_apply (iblk m c 0 t) (iblk m c 1 t) (iblk m c 3 t) (iblk m c 4 t) (iblk m c 5 t) r _).trans ?_
  refine Eq.trans ?_ (head16 (m ((c : Thread nD τ).loc main_arg0)) (m ((c : Thread nD τ).loc main_arg1)) (m ((c : Thread nD τ).loc main_arg8)) (m ((c : Thread nD τ).loc main_arg9)) (pOf t) (nOf t r) j).symm
  refine congrArg₂ (· + ·) (congrArg₂ (· + ·) (Finset.sum_congr rfl fun k _ => congrArg₂ (· * ·) ?_ ?_)
    (Finset.sum_congr rfl fun k _ => congrArg₂ (· * ·) ?_ ?_)) ?_
  · exact blk0 m c t r k
  · exact (blk3 m c t k _).trans (Wall_16 m c _ j)
  · exact blk1 m c t r k
  · exact (blk4 m c t k _).trans (Wall_16 m c _ j)
  · exact (blk5 m c t _).trans (Ball_16 m c j)

theorem bridge_20 (c : Dev nD) (t : Fin cfg0.N) (r : Fin 5000) (j : Fin 3) :
    (k0_pay5 (F := Ideal) (iblk m c 0 t) (iblk m c 1 t) (iblk m c 3 t) (iblk m c 4 t) (iblk m c 5 t)) (ix2 r ⟨11 + j.val, by omega⟩)
      = val_main_v20 (F := Ideal) (m ((c : Thread nD τ).loc main_arg0)) (m ((c : Thread nD τ).loc main_arg1)) (m ((c : Thread nD τ).loc main_arg10)) (m ((c : Thread nD τ).loc main_arg11)) (ix3 (pOf t) (nOf t r) j) := by
  refine (pay5_apply (iblk m c 0 t) (iblk m c 1 t) (iblk m c 3 t) (iblk m c 4 t) (iblk m c 5 t) r _).trans ?_
  refine Eq.trans ?_ (head20 (m ((c : Thread nD τ).loc main_arg0)) (m ((c : Thread nD τ).loc main_arg1)) (m ((c : Thread nD τ).loc main_arg10)) (m ((c : Thread nD τ).loc main_arg11)) (pOf t) (nOf t r) j).symm
  refine congrArg₂ (· + ·) (congrArg₂ (· + ·) (Finset.sum_congr rfl fun k _ => congrArg₂ (· * ·) ?_ ?_)
    (Finset.sum_congr rfl fun k _ => congrArg₂ (· * ·) ?_ ?_)) ?_
  · exact blk0 m c t r k
  · exact (blk3 m c t k _).trans (Wall_20 m c _ j)
  · exact blk1 m c t r k
  · exact (blk4 m c t k _).trans (Wall_20 m c _ j)
  · exact (blk5 m c t _).trans (Ball_20 m c j)

/-! ## The six stored values at a row are the reference's pieces at its point -/

section Point
variable (c : Dev nD) (t : Fin cfg0.N) (r : Fin 5000)

theorem hpt (i : Fin 3) : (fun i => k0_pay4 (F := Ideal) (iblk m c 0 t) (ix2 r i)) i = (m ((c : Thread nD τ).loc main_arg0)) (ix3 (pOf t) (nOf t r) i) :=
  (pay4_apply (iblk m c 0 t) r i).trans (blk0 m c t r i)

theorem hP (a b : Fin 4) : (fun a b => (iblk m c 2 t) (ix3 (0 : Fin 1) a b)) a b = val_main_v100 (F := Ideal) (m ((c : Thread nD τ).loc main_arg12)) (m ((c : Thread nD τ).loc main_arg13)) (ix3 (pOf t) a b) :=
  blk2 m c t a b

theorem point_scales (j : Fin 3) :
    k0_pay6 (F := Ideal) (iblk m c 0 t) (iblk m c 1 t) (iblk m c 3 t) (iblk m c 4 t) (iblk m c 5 t) (ix3 (0 : Fin 1) r j)
      = G m c (ix3 (pOf t) (nOf t r) ⟨3 + j.val, by omega⟩) :=
  (pay6_apply _ _ _ _ _ r j).trans
    ((ref_scales (m ((c : Thread nD τ).loc main_arg0)) (m ((c : Thread nD τ).loc main_arg1)) (m ((c : Thread nD τ).loc main_arg6)) (m ((c : Thread nD τ).loc main_arg7)) (pOf t) (nOf t r) (fun o => (k0_pay5 (F := Ideal) (iblk m c 0 t) (iblk m c 1 t) (iblk m c 3 t) (iblk m c 4 t) (iblk m c 5 t)) (ix2 r o)) (fun j' => bridge_12 m c t r j') j).symm.trans
      (G_piece2 m c _ _ j).symm)

theorem point_opac (j : Fin 1) :
    k0_pay7 (F := Ideal) (iblk m c 0 t) (iblk m c 1 t) (iblk m c 3 t) (iblk m c 4 t) (iblk m c 5 t) (ix3 (0 : Fin 1) r j)
      = G m c (ix3 (pOf t) (nOf t r) ⟨6 + j.val, by omega⟩) := by
  have hj : j = 0 := Subsingleton.elim _ _
  subst hj
  exact (pay7_apply _ _ _ _ _ r 0).trans
    ((ref_opac (m ((c : Thread nD τ).loc main_arg0)) (m ((c : Thread nD τ).loc main_arg1)) (m ((c : Thread nD τ).loc main_arg8)) (m ((c : Thread nD τ).loc main_arg9)) (pOf t) (nOf t r) (fun o => (k0_pay5 (F := Ideal) (iblk m c 0 t) (iblk m c 1 t) (iblk m c 3 t) (iblk m c 4 t) (iblk m c 5 t)) (ix2 r o)) 0 (bridge_16 m c t r 0)).symm.trans
      (G_piece3 m c _ _ 0).symm)

theorem point_colors (j : Fin 3) :
    k0_pay8 (F := Ideal) (k0_pay5 (F := Ideal) (iblk m c 0 t) (iblk m c 1 t) (iblk m c 3 t) (iblk m c 4 t) (iblk m c 5 t)) (ix3 (0 : Fin 1) r j) = G m c (ix3 (pOf t) (nOf t r) ⟨7 + j.val, by omega⟩) :=
  (pay8_apply _ r j).trans
    ((ref_colors (m ((c : Thread nD τ).loc main_arg0)) (m ((c : Thread nD τ).loc main_arg1)) (m ((c : Thread nD τ).loc main_arg10)) (m ((c : Thread nD τ).loc main_arg11)) (pOf t) (nOf t r) (fun o => (k0_pay5 (F := Ideal) (iblk m c 0 t) (iblk m c 1 t) (iblk m c 3 t) (iblk m c 4 t) (iblk m c 5 t)) (ix2 r o)) (fun j' => bridge_20 m c t r j') j).symm.trans
      (G_piece4 m c _ _ j).symm)

theorem point_rot (j : Fin 4) :
    k0_pay9 (F := Ideal) (k0_pay5 (F := Ideal) (iblk m c 0 t) (iblk m c 1 t) (iblk m c 3 t) (iblk m c 4 t) (iblk m c 5 t)) (ix3 (0 : Fin 1) r j) = G m c (ix3 (pOf t) (nOf t r) ⟨10 + j.val, by omega⟩) :=
  (pay9_apply _ r j).trans
    ((ref_rot (m ((c : Thread nD τ).loc main_arg0)) (m ((c : Thread nD τ).loc main_arg1)) (m ((c : Thread nD τ).loc main_arg4)) (m ((c : Thread nD τ).loc main_arg5)) (pOf t) (nOf t r) (fun o => (k0_pay5 (F := Ideal) (iblk m c 0 t) (iblk m c 1 t) (iblk m c 3 t) (iblk m c 4 t) (iblk m c 5 t)) (ix2 r o)) (fun k => bridge_8 m c t r k) j).symm.trans
      (G_piece5 m c _ _ j).symm)

theorem point_ndc (j : Fin 2) :
    k0_pay2 (F := Ideal) (k0_pay10 (F := Ideal) (k0_pay4 (F := Ideal) (iblk m c 0 t)) (k0_pay5 (F := Ideal) (iblk m c 0 t) (iblk m c 1 t) (iblk m c 3 t) (iblk m c 4 t) (iblk m c 5 t)) (iblk m c 2 t)) (k0_pay11 (F := Ideal) (k0_pay4 (F := Ideal) (iblk m c 0 t)) (k0_pay5 (F := Ideal) (iblk m c 0 t) (iblk m c 1 t) (iblk m c 3 t) (iblk m c 4 t) (iblk m c 5 t)) (iblk m c 2 t)) (ix3 (0 : Fin 1) r j) = G m c (ix3 (pOf t) (nOf t r) ⟨j.val, by omega⟩) := by
  refine (pay2_apply _ _ r j).trans ?_
  rw [pay10_apply, pay11_apply]
  exact (ref_ndc (m ((c : Thread nD τ).loc main_arg0)) (m ((c : Thread nD τ).loc main_arg1)) (m ((c : Thread nD τ).loc main_arg2)) (m ((c : Thread nD τ).loc main_arg3)) (m ((c : Thread nD τ).loc main_arg12)) (m ((c : Thread nD τ).loc main_arg13)) (pOf t) (nOf t r) (fun o => (k0_pay5 (F := Ideal) (iblk m c 0 t) (iblk m c 1 t) (iblk m c 3 t) (iblk m c 4 t) (iblk m c 5 t)) (ix2 r o)) (fun i => k0_pay4 (F := Ideal) (iblk m c 0 t) (ix2 r i)) (fun a b => (iblk m c 2 t) (ix3 (0 : Fin 1) a b))
    (hpt m c t r) (fun i => bridge_4 m c t r i) (hP m c t) j).symm.trans (G_piece0 m c _ _ j).symm

theorem point_depth (j : Fin 1) :
    k0_pay3 (F := Ideal) (k0_pay10 (F := Ideal) (k0_pay4 (F := Ideal) (iblk m c 0 t)) (k0_pay5 (F := Ideal) (iblk m c 0 t) (iblk m c 1 t) (iblk m c 3 t) (iblk m c 4 t) (iblk m c 5 t)) (iblk m c 2 t)) (k0_pay11 (F := Ideal) (k0_pay4 (F := Ideal) (iblk m c 0 t)) (k0_pay5 (F := Ideal) (iblk m c 0 t) (iblk m c 1 t) (iblk m c 3 t) (iblk m c 4 t) (iblk m c 5 t)) (iblk m c 2 t)) (ix3 (0 : Fin 1) r j) = G m c (ix3 (pOf t) (nOf t r) ⟨2 + j.val, by omega⟩) := by
  have hj : j = 0 := Subsingleton.elim _ _
  subst hj
  refine (pay3_apply _ _ r 0).trans ?_
  rw [pay10_apply, pay11_apply]
  exact (ref_depth (m ((c : Thread nD τ).loc main_arg0)) (m ((c : Thread nD τ).loc main_arg1)) (m ((c : Thread nD τ).loc main_arg2)) (m ((c : Thread nD τ).loc main_arg3)) (m ((c : Thread nD τ).loc main_arg12)) (m ((c : Thread nD τ).loc main_arg13)) (pOf t) (nOf t r) (fun o => (k0_pay5 (F := Ideal) (iblk m c 0 t) (iblk m c 1 t) (iblk m c 3 t) (iblk m c 4 t) (iblk m c 5 t)) (ix2 r o)) (fun i => k0_pay4 (F := Ideal) (iblk m c 0 t) (ix2 r i)) (fun a b => (iblk m c 2 t) (ix3 (0 : Fin 1) a b))
    (hpt m c t r) (fun i => bridge_4 m c t r i) (hP m c t) 0).symm.trans (G_piece1 m c _ _ 0).symm

end Point

/-! ## From the six stores to the block -/

theorem hz3 : (![0, 0, 0] : Fin 3 → Nat) = fun _ => 0 := funext fun a => by fin_cases a <;> rfl
theorem hz2 : (![0, 0] : Fin 2 → Nat) = fun _ => 0 := funext fun a => by fin_cases a <;> rfl

/-- The block after the body is any function that the six stored values agree with on their column ranges. -/
theorem out0_6_eq (x0 : Vec Ideal S1x5000x3 .f32) (x1 : Vec Ideal S1x5000x192 .f32) (x2 : Vec Ideal S1x4x4 .f32)
    (x3 : Vec Ideal S3x14 .f32) (x4 : Vec Ideal S192x14 .f32) (x5 : Vec Ideal S1x14 .f32) (Gb : S1x5000x14.Idx → EReal)
    (h2 : ∀ (r : Fin 5000) (j : Fin 1), k0_pay3 (F := Ideal) (k0_pay10 (F := Ideal) (k0_pay4 (F := Ideal) x0) (k0_pay5 (F := Ideal) x0 x1 x3 x4 x5) x2)
        (k0_pay11 (F := Ideal) (k0_pay4 (F := Ideal) x0) (k0_pay5 (F := Ideal) x0 x1 x3 x4 x5) x2) (ix3 (0 : Fin 1) r j) = Gb (ix3 (0 : Fin 1) r ⟨2 + j.val, by omega⟩))
    (h0 : ∀ (r : Fin 5000) (j : Fin 2), k0_pay2 (F := Ideal) (k0_pay10 (F := Ideal) (k0_pay4 (F := Ideal) x0) (k0_pay5 (F := Ideal) x0 x1 x3 x4 x5) x2)
        (k0_pay11 (F := Ideal) (k0_pay4 (F := Ideal) x0) (k0_pay5 (F := Ideal) x0 x1 x3 x4 x5) x2) (ix3 (0 : Fin 1) r j) = Gb (ix3 (0 : Fin 1) r ⟨j.val, by omega⟩))
    (h10 : ∀ (r : Fin 5000) (j : Fin 4), k0_pay9 (F := Ideal) (k0_pay5 (F := Ideal) x0 x1 x3 x4 x5) (ix3 (0 : Fin 1) r j) = Gb (ix3 (0 : Fin 1) r ⟨10 + j.val, by omega⟩))
    (h7 : ∀ (r : Fin 5000) (j : Fin 3), k0_pay8 (F := Ideal) (k0_pay5 (F := Ideal) x0 x1 x3 x4 x5) (ix3 (0 : Fin 1) r j) = Gb (ix3 (0 : Fin 1) r ⟨7 + j.val, by omega⟩))
    (h6 : ∀ (r : Fin 5000) (j : Fin 1), k0_pay7 (F := Ideal) x0 x1 x3 x4 x5 (ix3 (0 : Fin 1) r j) = Gb (ix3 (0 : Fin 1) r ⟨6 + j.val, by omega⟩))
    (h3 : ∀ (r : Fin 5000) (j : Fin 3), k0_pay6 (F := Ideal) x0 x1 x3 x4 x5 (ix3 (0 : Fin 1) r j) = Gb (ix3 (0 : Fin 1) r ⟨3 + j.val, by omega⟩)) :
    out0_6 (F := Ideal) x0 x1 x2 x3 x4 x5 = Gb := by
  funext y
  unfold out0_6 clipc clipw heads
  rw [View.ld_unit_zero (S := S1x5000x3) hz3, View.ld_unit_zero (S := S1x5000x192) hz3, View.ld_unit_zero (S := S1x4x4) hz3,
    View.ld_unit_zero (S := S3x14) hz2, View.ld_unit_zero (S := S192x14) hz2, View.ld_unit_zero (S := S1x14) hz2]
  refine View.canon_apply_of_pieces (Val := Elt Ideal) (e := .f32) Gb _ ?_ y (cover0_6 _ _ _ _ _ _ y)
  intro pc hpc x
  simp only [List.mem_cons, List.not_mem_nil, or_false] at hpc
  rcases hpc with rfl | rfl | rfl | rfl | rfl | rfl
  · obtain ⟨u, r, j, rfl⟩ : ∃ (u : Fin 1) (r : Fin 5000) (j : Fin 1), x = ix3 u r j := ⟨x 0, x 1, x 2, eq_ix3 x⟩
    obtain rfl : u = 0 := Subsingleton.elim _ _
    refine (h2 r j).trans (congrArg Gb (funext fun a => Fin.ext ?_))
    match a with
    | ⟨0, _⟩ => rfl
    | ⟨1, _⟩ => show r.val = 0 + 1 * r.val; omega
    | ⟨2, _⟩ => show 2 + j.val = 2 + 1 * j.val; omega
  · obtain ⟨u, r, j, rfl⟩ : ∃ (u : Fin 1) (r : Fin 5000) (j : Fin 2), x = ix3 u r j := ⟨x 0, x 1, x 2, eq_ix3 x⟩
    obtain rfl : u = 0 := Subsingleton.elim _ _
    refine (h0 r j).trans (congrArg Gb (funext fun a => Fin.ext ?_))
    match a with
    | ⟨0, _⟩ => rfl
    | ⟨1, _⟩ => show r.val = 0 + 1 * r.val; omega
    | ⟨2, _⟩ => show j.val = 0 + 1 * j.val; omega
  · obtain ⟨u, r, j, rfl⟩ : ∃ (u : Fin 1) (r : Fin 5000) (j : Fin 4), x = ix3 u r j := ⟨x 0, x 1, x 2, eq_ix3 x⟩
    obtain rfl : u = 0 := Subsingleton.elim _ _
    refine (h10 r j).trans (congrArg Gb (funext fun a => Fin.ext ?_))
    match a with
    | ⟨0, _⟩ => rfl
    | ⟨1, _⟩ => show r.val = 0 + 1 * r.val; omega
    | ⟨2, _⟩ => show 10 + j.val = 10 + 1 * j.val; omega
  · obtain ⟨u, r, j, rfl⟩ : ∃ (u : Fin 1) (r : Fin 5000) (j : Fin 3), x = ix3 u r j := ⟨x 0, x 1, x 2, eq_ix3 x⟩
    obtain rfl : u = 0 := Subsingleton.elim _ _
    refine (h7 r j).trans (congrArg Gb (funext fun a => Fin.ext ?_))
    match a with
    | ⟨0, _⟩ => rfl
    | ⟨1, _⟩ => show r.val = 0 + 1 * r.val; omega
    | ⟨2, _⟩ => show 7 + j.val = 7 + 1 * j.val; omega
  · obtain ⟨u, r, j, rfl⟩ : ∃ (u : Fin 1) (r : Fin 5000) (j : Fin 1), x = ix3 u r j := ⟨x 0, x 1, x 2, eq_ix3 x⟩
    obtain rfl : u = 0 := Subsingleton.elim _ _
    refine (h6 r j).trans (congrArg Gb (funext fun a => Fin.ext ?_))
    match a with
    | ⟨0, _⟩ => rfl
    | ⟨1, _⟩ => show r.val = 0 + 1 * r.val; omega
    | ⟨2, _⟩ => show 6 + j.val = 6 + 1 * j.val; omega
  · obtain ⟨u, r, j, rfl⟩ : ∃ (u : Fin 1) (r : Fin 5000) (j : Fin 3), x = ix3 u r j := ⟨x 0, x 1, x 2, eq_ix3 x⟩
    obtain rfl : u = 0 := Subsingleton.elim _ _
    refine (h3 r j).trans (congrArg Gb (funext fun a => Fin.ext ?_))
    match a with
    | ⟨0, _⟩ => rfl
    | ⟨1, _⟩ => show r.val = 0 + 1 * r.val; omega
    | ⟨2, _⟩ => show 3 + j.val = 3 + 1 * j.val; omega

/-! ## From the blocks to the array -/

/-- What a grid point writes back is its block of the result function. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  funext y
  show out0_6 (F := Ideal) (iblk m c 0 t) (iblk m c 1 t) (iblk m c 2 t) (iblk m c 3 t) (iblk m c 4 t) (iblk m c 5 t) y = G m c (((cfg0.win 6).blk t).view.emb y)
  refine congrFun (out0_6_eq _ _ _ _ _ _ (fun y => G m c (((cfg0.win 6).blk t).view.emb y)) ?_ ?_ ?_ ?_ ?_ ?_) y
  · intro r j; exact (point_depth m c t r j).trans (congrArg (G m c) (emb6 t r _).symm)
  · intro r j; exact (point_ndc m c t r j).trans (congrArg (G m c) (emb6 t r _).symm)
  · intro r j; exact (point_rot m c t r j).trans (congrArg (G m c) (emb6 t r _).symm)
  · intro r j; exact (point_colors m c t r j).trans (congrArg (G m c) (emb6 t r _).symm)
  · intro r j; exact (point_opac m c t r j).trans (congrArg (G m c) (emb6 t r _).symm)
  · intro r j; exact (point_scales m c t r j).trans (congrArg (G m c) (emb6 t r _).symm)

theorem mem_blk6 (t : Fin cfg0.N) (i : S16x25000x14.Idx) :
    i ∈ ((cfg0.win 6).blk t).view.set ↔ ∀ a : Fin 3, win0_6.index t a * S1x5000x14.size a ≤ (i a).val
      ∧ (i a).val < win0_6.index t a * S1x5000x14.size a + S1x5000x14.size a := by
  show i ∈ ((View.whole main_v67).slice (win0_6.rect t)).set ↔ _
  rw [View.set_slice_whole, Rect.mem_set_unit]
  exact Iff.rfl

/-- Every index of the result is in some grid point's block. -/
theorem cover6 (i : S16x25000x14.Idx) :
    ∃ t : Fin cfg0.N, (cfg0.win 6).flush t = true ∧ i ∈ ((cfg0.win 6).blk t).view.set := by
  have hi0 : (i 0).val < 16 := (i 0).isLt
  have hi1 : (i 1).val < 25000 := (i 1).isLt
  have hi2 : (i 2).val < 14 := (i 2).isLt
  obtain ⟨t, ht⟩ := idx_onto ⟨(i 0).val, hi0⟩ ⟨(i 1).val / 5000, by omega⟩
  have q0 : win0_6.index t (0 : Fin 3) = (i 0).val := congrFun ht 0
  have q1 : win0_6.index t (1 : Fin 3) = (i 1).val / 5000 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 5000 ≤ (i 1).val ∧ (i 1).val < win0_6.index t (1 : Fin 3) * 5000 + 5000; omega
  | ⟨2, _⟩ => show win0_6.index t (2 : Fin 3) * 14 ≤ (i 2).val ∧ (i 2).val < win0_6.index t (2 : Fin 3) * 14 + 14; omega

/-- The result array after the run. -/
theorem final (c : Dev nD) : (dats m 0 c).arrAt 6 cfg0.N = G m c :=
  (dats m 0 c).arrAt_eq_of_cover 6 (G m c) (fun t _ => flushed_eq m c t) cover6

/-- The kernel's run at the ideal values: the result is the reference's function of the arguments, which are kept. -/
theorem run : θ_run defs (onTc (τ := τ) (main (F := Ideal))) ⟨m, fun _ => 0, ρ⟩ fun r => ∀ c : Dev nD,
      r.2.mem ((c.tc : Thread nD τ).loc main_v67) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end Cert.KernelIdeal.Final

end
-- ==== Proof.lean ====
/-
  The certificate of the decoder-and-projection kernel against its reference.

  Three frames: the kernel at the word level and at the ideal values runs its 80 grid points after the host
  operations that build the weights, the bias row and the projection matrices, and leaves its arguments alone; the
  reference is a straight line of host operations.  The idealized kernel is the kernel's own text read at the ideal
  values (no rewrite was applied), so nothing is owed for it.  At the ideal values the two programs compute the same
  fourteen numbers per point: the kernel contracts the point's coordinates and its features against the first three
  and the remaining rows of the joined weights separately, which is the reference's one contraction over the joined
  195 inputs split in two; it spells the projection as three products and a fourth row added, which is the
  reference's four-term contraction with the homogeneous coordinate one; the activations are the same functions.
-/
import proofs.«172457_j36189394436976_2_alg».proof.Defs
import proofs.«172457_j36189394436976_2_alg».proof.Proof.KernelRun
import proofs.«172457_j36189394436976_2_alg».proof.Proof.KernelIdealRun
import proofs.«172457_j36189394436976_2_alg».proof.Proof.Gen.ReferenceIdeal
import proofs.«172457_j36189394436976_2_alg».proof.Proof.Gen.ReferenceIdeal.Run
import proofs.«172457_j36189394436976_2_alg».proof.Proof.Gen.Pre_finite_inputs
import proofs.«172457_j36189394436976_2_alg».proof.Proof.Gen.ReferenceIdeal.Read
import proofs.«172457_j36189394436976_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's function of the (agreeing) arguments. -/
theorem algebraic : Cert.algebraic_KernelIdeal_ReferenceIdeal := by
  intro m ρ m' ρ' _ hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v113_eq, a0, a1, a2, a3, a4, a5, a6, a7, a8, a9, a10, a11, a12, a13]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
